-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S32x2048x64 : Shape := ⟨3, ![32, 2048, 64]⟩
abbrev S1x2048x64 : Shape := ⟨3, ![1, 2048, 64]⟩
abbrev S1x1024x64 : Shape := ⟨3, ![1, 1024, 64]⟩
abbrev S2048x1 : Shape := ⟨2, ![2048, 1]⟩
abbrev S2048x64 : Shape := ⟨2, ![2048, 64]⟩
abbrev S1024x64 : Shape := ⟨2, ![1024, 64]⟩
abbrev S2048x1024 : Shape := ⟨2, ![2048, 1024]⟩
abbrev S2048 : Shape := ⟨1, ![2048]⟩

abbrev nBuf : Space → Nat
  | .hbm => 8
  | .vmem => 11
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S4x8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x1, .f32⟩
  | .local _ .vmem, ⟨9, _⟩ => ⟨S2048x1, .f32⟩
  | .local _ .vmem, ⟨10, _⟩ => ⟨S2048x64, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg2 : BitVec 32 := BitVec.ofNat 32 (i 2).val
  let c1_i32 : BitVec 32 := 1#32
  let v44 : BitVec 1 := Scalar.cmpi .eq arg2 c1_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x8x2048x64_S32x2048x64 : S4x8x2048x64.ShapeCasts S32x2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x64 : S2048x1.Broadcasts S2048x64
  shapeCasts_S2048x64_S1x2048x64 : S2048x64.ShapeCasts S1x2048x64
  shapeCasts_S32x2048x64_S4x8x2048x64 : S32x2048x64.ShapeCasts S4x8x2048x64
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x2048x64.size a
  hwx0_1 : ∀ i : grid0.Coords, EltTy.bits .f32 = 32 ∨ (Rect.block (s := S32x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x2048x64.size a
  hwx0_2 : ∀ i : grid0.Coords, EltTy.bits .f32 = 32 ∨ (Rect.block (s := S32x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S32x2048x64.size a
  hwx0_3 : ∀ i : grid0.Coords, EltTy.bits .f32 = 32 ∨ (Rect.block (s := S32x2048x64) S1x2048x64.size (cc0_transform_3 i) (hinb0_3 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S_, .f32⟩
  | .hbm, ⟨4, _⟩ => ⟨S4x8x2048x64, .f32⟩
  | .hbm, ⟨5, _⟩ => ⟨S4x8x2048x64, .f32⟩
  | .hbm, ⟨6, _⟩ => ⟨S4x8x2048x2048, .f32⟩
  | .hbm, ⟨7, _⟩ => ⟨S_, .f32⟩
  | .hbm, ⟨8, _⟩ => ⟨S4x8x2048, .f32⟩
  | .hbm, ⟨9, _⟩ => ⟨S_, .f32⟩
  | .hbm, ⟨10, _⟩ => ⟨S4x8x2048, .f32⟩
  | .hbm, ⟨11, _⟩ => ⟨S4x8x2048, .f32⟩
  | .hbm, ⟨12, _⟩ => ⟨S4x8x2048x1, .f32⟩
  | .hbm, ⟨13, _⟩ => ⟨S4x8x2048x2048, .f32⟩
  | .hbm, ⟨14, _⟩ => ⟨S4x8x2048x2048, .f32⟩
  | .hbm, ⟨15, _⟩ => ⟨S4x8x2048x2048, .f32⟩
  | .hbm, ⟨16, _⟩ => ⟨S_, .f32⟩
  | .hbm, ⟨17, _⟩ => ⟨S4x8x2048, .f32⟩
  | .hbm, ⟨18, _⟩ => ⟨S4x8x2048x1, .f32⟩
  | .hbm, ⟨19, _⟩ => ⟨S4x8x2048x2048, .f32⟩
  | .hbm, ⟨20, _⟩ => ⟨S4x8x2048x2048, .f32⟩
  | .hbm, ⟨21, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x8x2048x64 : S_.BroadcastsInDim S4x8x2048x64 (![] : Fin 0 → Fin S4x8x2048x64.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Pieces.lean ====
import proofs.«137079_j57234734187137_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
# What one grid point leaves behind

A grid point of the attention kernel handles one (batch, head) slice and one tile of 1024 keys. Three buffers are
carried from the first tile's point to the second: the running row maximum, the running row sum of exponentials and
the running weighted sum of value rows. At the first tile's point the body first stores the initial values (minus
infinity, zero, zero) and reads them back; at the second tile's point it reads what the first left and, after its
update, stores the quotient of the weighted sum by the row sum into the output block. Each lemma below says what one
of these buffers holds after the body, as the body's arithmetic applied to the blocks it loaded: every store covers
its whole buffer, so the last store's value is the buffer's content, and a load of a buffer stored just before reads
that store's value.
-/

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem scratchMax_B (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S2048x1 .f32) (xs1 : Vec F S2048x1 .f32) (xs2 : Vec F S2048x64 .f32) :
    sout0_B_0 c i arg3 harg3 arg4 harg4 arg5 harg5 arg6 harg6 arg7 harg7 arg8 harg8 arg9 harg9 hc0 hc1 x0 x1 x2 xs0 xs1 xs2 = k0_pay2 (k0_pay9 x0 x1 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readCov_unit_zero (S := S2048x1) _ hz2, View.readCov_unit_zero (S := S2048x64) _ hz2, View.readAt_eq_ld, harg3.read_unread, harg4.read_unread, harg5.read_unread, harg7.read_unread, harg8.read_unread, harg9.read_unread, View.ld_unit_zero (S := S2048x1) hz2, View.ld_unit_zero (S := S1x2048x64) hz3, View.ld_unit_zero (S := S1x1024x64) hz3, View.ld_unit_zero (S := S2048x64) hz2]

theorem scratchSum_B (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S2048x1 .f32) (xs1 : Vec F S2048x1 .f32) (xs2 : Vec F S2048x64 .f32) :
    sout0_B_1 c i arg3 harg3 arg4 harg4 arg5 harg5 arg6 harg6 arg7 harg7 arg8 harg8 arg9 harg9 hc0 hc1 x0 x1 x2 xs0 xs1 xs2 = k0_pay12 x0 x1 xs0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readCov_unit_zero (S := S2048x1) _ hz2, View.readCov_unit_zero (S := S2048x64) _ hz2, View.readAt_eq_ld, harg3.read_unread, harg4.read_unread, harg5.read_unread, harg7.read_unread, harg8.read_unread, harg9.read_unread, View.ld_unit_zero (S := S2048x1) hz2, View.ld_unit_zero (S := S1x2048x64) hz3, View.ld_unit_zero (S := S1x1024x64) hz3, View.ld_unit_zero (S := S2048x64) hz2]

theorem scratchAcc_B (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S2048x1 .f32) (xs1 : Vec F S2048x1 .f32) (xs2 : Vec F S2048x64 .f32) :
    sout0_B_2 c i arg3 harg3 arg4 harg4 arg5 harg5 arg6 harg6 arg7 harg7 arg8 harg8 arg9 harg9 hc0 hc1 x0 x1 x2 xs0 xs1 xs2 = k0_pay1 (k0_pay7 x2) (k0_pay10 x0 x1 xs0) (k0_pay11 x0 x1 xs0) xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readCov_unit_zero (S := S2048x1) _ hz2, View.readCov_unit_zero (S := S2048x64) _ hz2, View.readAt_eq_ld, harg3.read_unread, harg4.read_unread, harg5.read_unread, harg7.read_unread, harg8.read_unread, harg9.read_unread, View.ld_unit_zero (S := S2048x1) hz2, View.ld_unit_zero (S := S1x2048x64) hz3, View.ld_unit_zero (S := S1x1024x64) hz3, View.ld_unit_zero (S := S2048x64) hz2]

theorem outBlock_B (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .f32) (x2 : Vec F S1x1024x64 .f32) (xs0 : Vec F S2048x1 .f32) (xs1 : Vec F S2048x1 .f32) (xs2 : Vec F S2048x64 .f32) :
    out0_B_3 c i arg3 harg3 arg4 harg4 arg5 harg5 arg6 harg6 arg7 harg7 arg8 harg8 arg9 harg9 hc0 hc1 x0 x1 x2 xs0 xs1 xs2 = k0_pay3 (k0_pay1 (k0_pay7 x2) (k0_pay10 x0 x1 xs0) (k0_pay11 x0 x1 xs0) xs2) (k0_pay12 x0 x1 xs0 xs1) := by
  unfold out0_B_3
  rw [View.read_writes_eq_canon _ _ _ (cover0_B_3 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz3]
  simp only [View.readCov_unit_zero (S := S2048x1) _ hz2, View.readCov_unit_zero (S := S2048x64) _ hz2, View.readAt_eq_ld, harg3.read_unread, harg4.read_unread, harg5.read_unread, harg7.read_unread, harg8.read_unread, harg9.read_unread, View.ld_unit_zero (S := S2048x1) hz2, View.ld_unit_zero (S := S1x2048x64) hz3, View.ld_unit_zero (S := S1x1024x64) hz3, View.ld_unit_zero (S := S2048x64) hz2]

theorem scratchMax_A (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : cond0_0 i) (hc1 : ¬cond0_1 i)
    (x0 : Vec F S1x2048x64 .f32) (x1 : Vec F S1x1024x64 .f32) (x2 : Vec F S1x1024x64 .f32) :
    sout0_A_0 c i arg3 harg3 arg4 harg4 arg5 harg5 arg6 harg6 arg7 harg7 arg8 harg8 arg9 harg9 hc0 hc1 x0 x1 x2 = k0_pay2 (k0_pay9 x0 x1 k0_pay4) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readCov_unit_zero (S := S2048x1) _ hz2, View.readCov_unit_zero (S := S2048x64) _ hz2, View.readAt_eq_ld, harg3.read_unread, harg4.read_unread, harg5.read_unread, harg7.read_unread, harg8.read_unread, harg9.read_unread, View.ld_unit_zero (S := S2048x1) hz2, View.ld_unit_zero (S := S1x2048x64) hz3, View.ld_unit_zero (S := S1x1024x64) hz3, View.ld_unit_zero (S := S2048x64) hz2]

theorem scratchSum_A (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : cond0_0 i) (hc1 : ¬cond0_1 i)
    (x0 : Vec F S1x2048x64 .f32) (x1 : Vec F S1x1024x64 .f32) (x2 : Vec F S1x1024x64 .f32) :
    sout0_A_1 c i arg3 harg3 arg4 harg4 arg5 harg5 arg6 harg6 arg7 harg7 arg8 harg8 arg9 harg9 hc0 hc1 x0 x1 x2 = k0_pay12 x0 x1 k0_pay4 k0_pay5 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readCov_unit_zero (S := S2048x1) _ hz2, View.readCov_unit_zero (S := S2048x64) _ hz2, View.readAt_eq_ld, harg3.read_unread, harg4.read_unread, harg5.read_unread, harg7.read_unread, harg8.read_unread, harg9.read_unread, View.ld_unit_zero (S := S2048x1) hz2, View.ld_unit_zero (S := S1x2048x64) hz3, View.ld_unit_zero (S := S1x1024x64) hz3, View.ld_unit_zero (S := S2048x64) hz2]

theorem scratchAcc_A (c : Dev nD) (i : grid0.Coords) (arg3 : Memref sig .tc .vmem S1x2048x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : cond0_0 i) (hc1 : ¬cond0_1 i)
    (x0 : Vec F S1x2048x64 .f32) (x1 : Vec F S1x1024x64 .f32) (x2 : Vec F S1x1024x64 .f32) :
    sout0_A_2 c i arg3 harg3 arg4 harg4 arg5 harg5 arg6 harg6 arg7 harg7 arg8 harg8 arg9 harg9 hc0 hc1 x0 x1 x2 = k0_pay1 (k0_pay7 x2) (k0_pay10 x0 x1 k0_pay4) (k0_pay11 x0 x1 k0_pay4) k0_pay6 := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x64) hz2]
  simp only [View.readCov_unit_zero (S := S2048x1) _ hz2, View.readCov_unit_zero (S := S2048x64) _ hz2, View.readAt_eq_ld, harg3.read_unread, harg4.read_unread, harg5.read_unread, harg7.read_unread, harg8.read_unread, harg9.read_unread, View.ld_unit_zero (S := S2048x1) hz2, View.ld_unit_zero (S := S1x2048x64) hz3, View.ld_unit_zero (S := S1x1024x64) hz3, View.ld_unit_zero (S := S2048x64) hz2]

end Cert.KernelIdeal.Pieces
end
-- ==== Proof.Carried.lean ====
/-
  What the kernel carries from the first key tile's grid point to the second, and what it writes at the second.

  The grid has 64 points: point 2n handles (batch, head) slice n and the first tile of 1024 key rows, point 2n + 1 the
  same slice and the second tile. After an even point the three carried buffers hold the body's update of the initial
  values (minus infinity, zero, zero) with the first tile's blocks; after the odd point that follows, the output block
  holds the quotient of the updated weighted sum by the updated sum, both updated from what the even point left with
  the second tile's blocks. Stated here with the body's arithmetic left as the generated payload terms.
-/
import proofs.«137079_j57234734187137_2_alg».proof.Proof.Pieces

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.KernelIdeal.Pieces

variable {F : FTy → Type} [FloatOps F]
variable (m : (ℓ : Loc nD τ sig) → Buf (Elt F) ℓ)

/-- The running maximum, sum and weighted sum after the first tile of the slice, from the point's blocks. -/
def firstMax (c : Dev nD) (t : Fin cfg0.N) : Vec F S2048x1 .f32 :=
  k0_pay2 (k0_pay9 (iblk m c 0 t) (iblk m c 1 t) k0_pay4)
def firstSum (c : Dev nD) (t : Fin cfg0.N) : Vec F S2048x1 .f32 :=
  k0_pay12 (iblk m c 0 t) (iblk m c 1 t) k0_pay4 k0_pay5
def firstAcc (c : Dev nD) (t : Fin cfg0.N) : Vec F S2048x64 .f32 :=
  k0_pay1 (k0_pay7 (iblk m c 2 t)) (k0_pay10 (iblk m c 0 t) (iblk m c 1 t) k0_pay4) (k0_pay11 (iblk m c 0 t) (iblk m c 1 t) k0_pay4) k0_pay6

/-- After an even point the first carried buffer holds the first tile's update of minus infinity: the running maximum. -/
theorem carried_max (c : Dev nD) (n : ℕ) (hn : n < cfg0.N) (h0 : n % 2 = 0) :
    (outsAt0 m c n hn).2.1 = firstMax m c (⟨n, hn⟩ : Fin cfg0.N) := by
  have h1 : ¬ n % 2 = 1 := by omega
  have p := scratchMax_A (F := F) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))
  rw [outsAt0_A m c (⟨n, hn⟩ : Fin cfg0.N) h0 h1]
  dsimp only
  unfold firstMax
  exact p

/-- After an even point the second carried buffer holds the first tile's update of zero: the running sum. -/
theorem carried_sum (c : Dev nD) (n : ℕ) (hn : n < cfg0.N) (h0 : n % 2 = 0) :
    (outsAt0 m c n hn).2.2.1 = firstSum m c (⟨n, hn⟩ : Fin cfg0.N) := by
  have h1 : ¬ n % 2 = 1 := by omega
  have p := scratchSum_A (F := F) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))
  rw [outsAt0_A m c (⟨n, hn⟩ : Fin cfg0.N) h0 h1]
  dsimp only
  unfold firstSum
  exact p

/-- After an even point the third carried buffer holds the first tile's update of zero: the running weighted sum. -/
theorem carried_acc (c : Dev nD) (n : ℕ) (hn : n < cfg0.N) (h0 : n % 2 = 0) :
    (outsAt0 m c n hn).2.2.2 = firstAcc m c (⟨n, hn⟩ : Fin cfg0.N) := by
  have h1 : ¬ n % 2 = 1 := by omega
  have p := scratchAcc_A (F := F) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))
  rw [outsAt0_A m c (⟨n, hn⟩ : Fin cfg0.N) h0 h1]
  dsimp only
  unfold firstAcc
  exact p

/-- The point before an odd point. -/
abbrev prev (t : Fin cfg0.N) : Fin cfg0.N := ⟨t.val - 1, Nat.lt_of_le_of_lt (Nat.sub_le _ _) t.isLt⟩

/-- After an odd point the output block holds the second tile's update of what the even point before left, the
    weighted sum divided by the sum. -/
theorem out_odd (c : Dev nD) (t : Fin cfg0.N) (h1 : t.val % 2 = 1) :
    (outsAt0 m c t.val t.isLt).1
      = k0_pay3 (k0_pay1 (k0_pay7 (iblk m c 2 t)) (k0_pay10 (iblk m c 0 t) (iblk m c 1 t) (firstMax m c (prev t)))
            (k0_pay11 (iblk m c 0 t) (iblk m c 1 t) (firstMax m c (prev t))) (firstAcc m c (prev t)))
          (k0_pay12 (iblk m c 0 t) (iblk m c 1 t) (firstMax m c (prev t)) (firstSum m c (prev t))) := by
  have h0 : ¬ t.val % 2 = 0 := by omega
  have hp : (t.val - 1) % 2 = 0 := by omega
  have p := outBlock_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t)
    (firstMax m c (prev t)) (firstSum m c (prev t)) (firstAcc m c (prev t))
  rw [outsAt0_B m c t h0 h1]
  dsimp only
  rw [carried_max m c (t.val - 1) _ hp, carried_sum m c (t.val - 1) _ hp, carried_acc m c (t.val - 1) _ hp]
  exact p

end Cert.KernelIdeal.Carried

end
-- ==== Proof.AttentionSpec.lean ====
/-
  Scaled dot-product attention over the extended reals, stated index by index, in the two arrangements the two programs
  compute it in.

  For a batch b, a head h and a query row r the SCORE of key row j is the sum over the 64 features d of
  (q[b,h,r,d] * 1/8) * k[b,h,j,d]. The reference takes the row's maximum M (folded from minus infinity), the
  exponentials exp (score j - M), their sum D (from zero), and returns the sum over the 2048 key rows j of
  (exp (score j - M) / D) * v[b,h,j,d].

  The kernel visits the 2048 key rows in two tiles of 1024 and carries three running quantities per query row: a
  maximum, a sum of exponentials and a sum of exponentials weighted by value rows. One tile's update of them, as
  functions of the tile's blocks and of what the quantities were, is `newMax`, `newSum`, `newAcc`; started from
  (minus infinity, 0, 0), updated with the first tile and then with the second, the weighted sum divided by the sum is
  the kernel's result `kernOut`.
-/
import Idealize.ShloMosaic.PureOps.Ideal
import Idealize.ShloMosaic.Lib.ValueIdx

noncomputable section

namespace Cert.AttentionSpec

open Idealize.ShloMosaic Idealize.ShloMosaic.ValueIdx

/-- The scale 1/8 as both programs write it: the f32 word of 0.125. -/
abbrev cScale : EReal := Ideal.ofBits .f32 0x3E000000#32
/-- Minus infinity as both programs write it. -/
abbrev cNegInf : EReal := Ideal.ofBits .f32 0xFF800000#32
/-- Zero as both programs write it. -/
abbrev cZero : EReal := Ideal.ofBits .f32 0x00000000#32

/-- The whole arrays' shape [4, 8, 2048, 64] (batch, head, row, feature). -/
abbrev SArr : Shape := ⟨4, ![4, 8, 2048, 64]⟩
/-- A query block [1, 2048, 64], a key or value block [1, 1024, 64], a column [2048, 1], an accumulator [2048, 64]. -/
abbrev SQ : Shape := ⟨3, ![1, 2048, 64]⟩
abbrev SK : Shape := ⟨3, ![1, 1024, 64]⟩
abbrev SCol : Shape := ⟨2, ![2048, 1]⟩
abbrev SAcc : Shape := ⟨2, ![2048, 64]⟩

/-- Key row j of the first tile, and of the second, among the 2048 key rows. -/
def lo (j : Fin 1024) : Fin 2048 := ⟨j.val, by have := j.isLt; omega⟩
def hi (j : Fin 1024) : Fin 2048 := ⟨1024 + j.val, by have := j.isLt; omega⟩

/-! ## The reference's arrangement -/

/-- The score of key row j for query row r of head (b, h). -/
def score (q k : SArr.Idx → EReal) (b : Fin 4) (h : Fin 8) (r j : Fin 2048) : EReal :=
  ∑ d : Fin 64, (q (ix4 b h r d) * cScale) * k (ix4 b h j d)

/-- The row's maximum as the reference takes it: the fold of max from minus infinity, once more against minus infinity. -/
def rowMax (q k : SArr.Idx → EReal) (b : Fin 4) (h : Fin 8) (r : Fin 2048) : EReal :=
  max cNegInf ((Finset.univ : Finset (Fin 2048)).fold max cNegInf (fun j => score q k b h r j))

/-- The reference's result at (b, h, r, d). -/
def refOut (q k v : SArr.Idx → EReal) (b : Fin 4) (h : Fin 8) (r : Fin 2048) (d : Fin 64) : EReal :=
  ∑ j : Fin 2048,
    Ideal.div (Ideal.exp (score q k b h r j - rowMax q k b h r))
        (cZero + ∑ j' : Fin 2048, Ideal.exp (score q k b h r j' - rowMax q k b h r))
      * v (ix4 b h j d)

/-! ## One tile's update, over blocks -/

/-- The score of the tile's key row j for query row r, from the query block and the tile's key block. -/
def tileScore (qb : SQ.Idx → EReal) (kb : SK.Idx → EReal) (r : Fin 2048) (j : Fin 1024) : EReal :=
  ∑ d : Fin 64, (qb (ix3 (0 : Fin 1) r d) * cScale) * kb (ix3 (0 : Fin 1) j d)

/-- The running maximum after the tile. -/
def newMax (qb : SQ.Idx → EReal) (kb : SK.Idx → EReal) (mS : SCol.Idx → EReal) (r : Fin 2048) : EReal :=
  max (mS (ix2 r (0 : Fin 1))) ((Finset.univ : Finset (Fin 1024)).fold max cNegInf (fun j => tileScore qb kb r j))

/-- The running sum of exponentials after the tile: the old one rescaled, plus the tile's. -/
def newSum (qb : SQ.Idx → EReal) (kb : SK.Idx → EReal) (mS lS : SCol.Idx → EReal) (r : Fin 2048) : EReal :=
  Ideal.exp (mS (ix2 r (0 : Fin 1)) - newMax qb kb mS r) * lS (ix2 r (0 : Fin 1))
    + ∑ j : Fin 1024, Ideal.exp (tileScore qb kb r j - newMax qb kb mS r)

/-- The running weighted sum after the tile: the old one rescaled, plus the tile's exponentials times its value rows. -/
def newAcc (qb : SQ.Idx → EReal) (kb vb : SK.Idx → EReal) (mS : SCol.Idx → EReal) (aS : SAcc.Idx → EReal)
    (r : Fin 2048) (d : Fin 64) : EReal :=
  Ideal.exp (mS (ix2 r (0 : Fin 1)) - newMax qb kb mS r) * aS (ix2 r d)
    + ∑ j : Fin 1024, Ideal.exp (tileScore qb kb r j - newMax qb kb mS r) * vb (ix3 (0 : Fin 1) j d)

/-! ## The kernel's arrangement, over the whole arrays -/

/-- After the first tile, started from (minus infinity, 0, 0). -/
def max1 (q k : SArr.Idx → EReal) (b : Fin 4) (h : Fin 8) (r : Fin 2048) : EReal :=
  max cNegInf ((Finset.univ : Finset (Fin 1024)).fold max cNegInf (fun j => score q k b h r (lo j)))
def sum1 (q k : SArr.Idx → EReal) (b : Fin 4) (h : Fin 8) (r : Fin 2048) : EReal :=
  Ideal.exp (cNegInf - max1 q k b h r) * cZero + ∑ j : Fin 1024, Ideal.exp (score q k b h r (lo j) - max1 q k b h r)
def acc1 (q k v : SArr.Idx → EReal) (b : Fin 4) (h : Fin 8) (r : Fin 2048) (d : Fin 64) : EReal :=
  Ideal.exp (cNegInf - max1 q k b h r) * cZero
    + ∑ j : Fin 1024, Ideal.exp (score q k b h r (lo j) - max1 q k b h r) * v (ix4 b h (lo j) d)

/-- After the second tile. -/
def max2 (q k : SArr.Idx → EReal) (b : Fin 4) (h : Fin 8) (r : Fin 2048) : EReal :=
  max (max1 q k b h r) ((Finset.univ : Finset (Fin 1024)).fold max cNegInf (fun j => score q k b h r (hi j)))
def sum2 (q k : SArr.Idx → EReal) (b : Fin 4) (h : Fin 8) (r : Fin 2048) : EReal :=
  Ideal.exp (max1 q k b h r - max2 q k b h r) * sum1 q k b h r
    + ∑ j : Fin 1024, Ideal.exp (score q k b h r (hi j) - max2 q k b h r)
def acc2 (q k v : SArr.Idx → EReal) (b : Fin 4) (h : Fin 8) (r : Fin 2048) (d : Fin 64) : EReal :=
  Ideal.exp (max1 q k b h r - max2 q k b h r) * acc1 q k v b h r d
    + ∑ j : Fin 1024, Ideal.exp (score q k b h r (hi j) - max2 q k b h r) * v (ix4 b h (hi j) d)

/-- The kernel's result at (b, h, r, d). -/
def kernOut (q k v : SArr.Idx → EReal) (b : Fin 4) (h : Fin 8) (r : Fin 2048) (d : Fin 64) : EReal :=
  Ideal.div (acc2 q k v b h r d) (sum2 q k b h r)

end Cert.AttentionSpec

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.Payloads.lean ====
import proofs.«137079_j57234734187137_2_alg».proof.Proof.Gen.KernelIdeal.Skeleton
import proofs.«137079_j57234734187137_2_alg».proof.Proof.AttentionSpec
import proofs.«137079_j57234734187137_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

/-!
# One tile's body, read at an index

The attention body computes, from the query block, one tile's key and value blocks and the three running quantities
(a maximum and a sum of exponentials per query row, and a weighted sum per query row and feature), the three
quantities after the tile. Its values are whole blocks; this file reads each of them at one index, over the extended
reals, where every float operation is exact and a format change is the identity:

* the score block at (r, j) is the sum over the 64 features of the scaled query row r against the tile's key row j;
* the new maximum at row r is the old one against the fold of max, from minus infinity, over the row's 1024 scores;
* the new sum at row r is the old one times exp (old maximum - new maximum), plus the sum over the row of
  exp (score - new maximum);
* the new weighted sum at (r, d) is the old one times the same factor, plus the sum over the tile's key rows j of
  exp (score - new maximum) times the value row j at feature d;
* the result block at (0, r, d) is the weighted sum at (r, d) divided by the sum at row r;
* the three quantities start at minus infinity, zero and zero.

Each non-pointwise operation gets one lemma at explicit coordinates: the two products (a contraction over one axis,
re-indexed by that axis's coordinate), the two lane reductions (a fold of max and a sum over the lane axis), and the
layout operations (a dropped or added leading unit axis, a flat array cast to a column, a column broadcast along
rows). The pointwise operations read through at an index by definition.
-/

noncomputable section

namespace Cert.KernelIdeal.Payloads

open Idealize.ShloMosaic Idealize.ShloMosaic.ValueIdx Cert.KernelIdeal Cert.KernelIdeal.Gen Cert.AttentionSpec

/-! ## The two products read at an index -/

/-- In the score product the left operand's row coordinate is the result's row. -/
theorem scoreDot_lhs0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
/-- In the score product the left operand's feature coordinate is the contraction's. -/
theorem scoreDot_lhs1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
/-- In the score product the right operand's row coordinate is the result's column. -/
theorem scoreDot_rhs0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
/-- In the score product the right operand's feature coordinate is the contraction's. -/
theorem scoreDot_rhs1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- The score product at (r, j): the sum over the 64 features k of the left operand at (r, k) times the right at (j, k). -/
theorem scoreDot_apply (a : FVec Ideal S2048x64 .bf16) (b : FVec Ideal S1024x64 .bf16) (r : Fin 2048) (j : Fin 1024) :
    matmul (F := Ideal) dot_S2048x64_S1024x64_S2048x1024_1_1_0_0_n_n none a b (constant (F := Ideal) S2048x1024 .f32 0x00000000#32) (ix2 r j)
      = ∑ k : Fin 64, a (ix2 r k) * b (ix2 j k) := by
  simp only [matmul]
  rw [Ideal.matmul_constant_zero_apply, ← Equiv.sum_comp (ValueIdx.contrEquiv1 dot_S2048x64_S1024x64_S2048x1024_1_1_0_0_n_n 64 rfl rfl).symm]
  refine Finset.sum_congr rfl fun k _ => ?_
  have hk := ValueIdx.contrEquiv1_symm_val dot_S2048x64_S1024x64_S2048x1024_1_1_0_0_n_n 64 rfl rfl k
  have el : dot_S2048x64_S1024x64_S2048x1024_1_1_0_0_n_n.lhsIdx (ix2 r j) ((ValueIdx.contrEquiv1 dot_S2048x64_S1024x64_S2048x1024_1_1_0_0_n_n 64 rfl rfl).symm k) = ix2 r k := funext fun c => Fin.ext (by
    match c with
    | ⟨0, _⟩ => exact scoreDot_lhs0 _ _
    | ⟨1, _⟩ => exact (scoreDot_lhs1 _ _).trans hk)
  have er : dot_S2048x64_S1024x64_S2048x1024_1_1_0_0_n_n.rhsIdx (ix2 r j) ((ValueIdx.contrEquiv1 dot_S2048x64_S1024x64_S2048x1024_1_1_0_0_n_n 64 rfl rfl).symm k) = ix2 j k := funext fun c => Fin.ext (by
    match c with
    | ⟨0, _⟩ => exact scoreDot_rhs0 _ _
    | ⟨1, _⟩ => exact (scoreDot_rhs1 _ _).trans hk)
  rw [el, er]

/-- In the weighted-sum product the left operand's row coordinate is the result's row. -/
theorem accDot_lhs0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
/-- In the weighted-sum product the left operand's column coordinate is the contraction's. -/
theorem accDot_lhs1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
/-- In the weighted-sum product the right operand's row coordinate is the contraction's. -/
theorem accDot_rhs0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
/-- In the weighted-sum product the right operand's column coordinate is the result's column. -/
theorem accDot_rhs1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The weighted-sum product at (r, d): the sum over the tile's 1024 key rows k of the left operand at (r, k) times the right at (k, d). -/
theorem accDot_apply (a : FVec Ideal S2048x1024 .bf16) (b : FVec Ideal S1024x64 .bf16) (r : Fin 2048) (d : Fin 64) :
    matmul (F := Ideal) dot_S2048x1024_S1024x64_S2048x64_1_0_0_1_n_n none a b (constant (F := Ideal) S2048x64 .f32 0x00000000#32) (ix2 r d)
      = ∑ k : Fin 1024, a (ix2 r k) * b (ix2 k d) := by
  simp only [matmul]
  rw [Ideal.matmul_constant_zero_apply, ← Equiv.sum_comp (ValueIdx.contrEquiv1 dot_S2048x1024_S1024x64_S2048x64_1_0_0_1_n_n 1024 rfl rfl).symm]
  refine Finset.sum_congr rfl fun k _ => ?_
  have hk := ValueIdx.contrEquiv1_symm_val dot_S2048x1024_S1024x64_S2048x64_1_0_0_1_n_n 1024 rfl rfl k
  have el : dot_S2048x1024_S1024x64_S2048x64_1_0_0_1_n_n.lhsIdx (ix2 r d) ((ValueIdx.contrEquiv1 dot_S2048x1024_S1024x64_S2048x64_1_0_0_1_n_n 1024 rfl rfl).symm k) = ix2 r k := funext fun c => Fin.ext (by
    match c with
    | ⟨0, _⟩ => exact accDot_lhs0 _ _
    | ⟨1, _⟩ => exact (accDot_lhs1 _ _).trans hk)
  have er : dot_S2048x1024_S1024x64_S2048x64_1_0_0_1_n_n.rhsIdx (ix2 r d) ((ValueIdx.contrEquiv1 dot_S2048x1024_S1024x64_S2048x64_1_0_0_1_n_n 1024 rfl rfl).symm k) = ix2 k d := funext fun c => Fin.ext (by
    match c with
    | ⟨0, _⟩ => exact (accDot_rhs0 _ _).trans hk
    | ⟨1, _⟩ => exact accDot_rhs1 _ _)
  rw [el, er]

/-! ## The two lane reductions read at an index -/

/-- The index the lane reductions read at row r and lane k is (r, k). -/
theorem lift_row (r : Fin 2048) (k : Fin 1024) : reduces_S2048x1024_S2048.lift (ix1 r) k = ix2 r k :=
  funext fun c => Fin.ext (by match c with | ⟨0, _⟩ => rfl | ⟨1, _⟩ => rfl)

/-- The lane maximum of a [2048, 1024] block at row r: the fold of max from minus infinity over the row's 1024 entries. -/
theorem rowMax_apply (v : FVec Ideal S2048x1024 .f32) (r : Fin 2048) :
    multiReduction (F := Ideal) .maximumf [1] S2048 v 0xFF800000#32 reduces_S2048x1024_S2048 (.inl rfl) rfl (ix1 r)
      = (Finset.univ : Finset (Fin 1024)).fold max cNegInf (fun k => v (ix2 r k)) := by
  refine (Ideal.multiReduction_maximumf_single v _ reduces_S2048x1024_S2048 (.inl rfl) rfl (ix1 r)).trans ?_
  show (Finset.univ : Finset (Fin 1024)).fold max cNegInf (v ∘ reduces_S2048x1024_S2048.lift (ix1 r)) = _
  congr 1
  funext k
  exact congrArg v (lift_row r k)

/-- The lane sum of a [2048, 1024] block at row r: the sum of the row's 1024 entries. -/
theorem rowSum_apply (v : FVec Ideal S2048x1024 .f32) (r : Fin 2048) :
    multiReduction (F := Ideal) .add [1] S2048 v 0x00000000#32 reduces_S2048x1024_S2048 (.inl rfl) rfl (ix1 r)
      = ∑ k : Fin 1024, v (ix2 r k) := by
  refine (Ideal.multiReduction_add_single v _ reduces_S2048x1024_S2048 (.inl rfl) rfl (ix1 r)).trans ?_
  show ∑ k : Fin 1024, v (reduces_S2048x1024_S2048.lift (ix1 r) k) = _
  exact Finset.sum_congr rfl fun k _ => congrArg v (lift_row r k)

/-! ## The payloads at an index -/

variable (x0 : Vec Ideal S1x2048x64 .f32) (x1 x2 : Vec Ideal S1x1024x64 .f32) (xs0 xs1 : Vec Ideal S2048x1 .f32)
  (xs2 : Vec Ideal S2048x64 .f32) (r : Fin 2048) (u : Fin 1) (d : Fin 64) (j : Fin 1024)

/-- The tile's score block at (r, j) is the score of the tile's key row j for query row r: the query row is scaled
    by 1/8, both operands lose their leading unit axis, the format changes are the identity, and the product
    contracts the 64 features. -/
theorem payScore_apply : k0_pay8 x0 x1 (ix2 r j) = tileScore x0 x1 r j := by
  unfold k0_pay8 tileScore
  refine (scoreDot_apply _ _ r j).trans ?_
  refine Finset.sum_congr rfl fun k _ => ?_
  rw [truncf_apply, truncf_apply, mulf_apply, broadcast_apply, shapeCast_1ab_ab_apply, shapeCast_1ab_ab_apply]
  rfl

/-- The new running maximum at row r, as a column: the old one against the lane maximum of the tile's scores. -/
theorem pay9_apply : k0_pay9 x0 x1 xs0 (ix2 r u) = newMax x0 x1 xs0 r := by
  obtain rfl : u = 0 := Subsingleton.elim _ _
  unfold k0_pay9 newMax
  rw [maximumf_apply, Cert.LibColumnLayout.shapeCast_a_a1_apply, rowMax_apply]
  congr 2
  funext k
  exact payScore_apply x0 x1 r k

/-- The stored running maximum is the new running maximum: a shape cast to the same shape changes nothing. -/
theorem payMax_apply : k0_pay2 (k0_pay9 x0 x1 xs0) (ix2 r u) = newMax x0 x1 xs0 r := by
  unfold k0_pay2
  rw [shapeCast_self]
  exact pay9_apply x0 x1 xs0 r u

/-- The rescaling factor at row r: the exponential of the old running maximum minus the new one. -/
theorem pay10_apply : k0_pay10 x0 x1 xs0 (ix2 r u) = Ideal.exp (xs0 (ix2 r (0 : Fin 1)) - newMax x0 x1 xs0 r) := by
  obtain rfl : u = 0 := Subsingleton.elim _ _
  unfold k0_pay10
  show Ideal.exp (subf xs0 (k0_pay9 x0 x1 xs0) (ix2 r 0)) = _
  rw [subf_apply, pay9_apply]

/-- The tile's exponentials at (r, j): the exponential of the score minus the new running maximum of row r. -/
theorem pay11_apply : k0_pay11 x0 x1 xs0 (ix2 r j) = Ideal.exp (tileScore x0 x1 r j - newMax x0 x1 xs0 r) := by
  unfold k0_pay11
  show Ideal.exp (subf (k0_pay8 x0 x1) (broadcastTo S2048x1024 (k0_pay9 x0 x1 xs0) broadcasts_S2048x1_S2048x1024) (ix2 r j)) = _
  rw [subf_apply, Cert.LibColumnLayout.broadcastTo_a1_ab_apply, pay9_apply, payScore_apply]

/-- The new running sum of exponentials at row r: the old one rescaled, plus the lane sum of the tile's exponentials. -/
theorem paySum_apply : k0_pay12 x0 x1 xs0 xs1 (ix2 r u) = newSum x0 x1 xs0 xs1 r := by
  obtain rfl : u = 0 := Subsingleton.elim _ _
  unfold k0_pay12 newSum
  rw [shapeCast_self, addf_apply, mulf_apply, Cert.LibColumnLayout.shapeCast_a_a1_apply, rowSum_apply, pay10_apply]
  congr 1
  exact Finset.sum_congr rfl fun k _ => pay11_apply x0 x1 xs0 r k

/-- The tile's value block at (j, d), its leading unit axis dropped and its format changed, is the value row j at feature d. -/
theorem pay7_apply : k0_pay7 x2 (ix2 j d) = x2 (ix3 (0 : Fin 1) j d) := by
  unfold k0_pay7
  rw [truncf_apply, shapeCast_1ab_ab_apply]

/-- The new running weighted sum at (r, d): the old one rescaled by row r's factor, plus the tile's exponentials of
    row r against the tile's value rows at feature d. -/
theorem payAcc_apply : k0_pay1 (k0_pay7 x2) (k0_pay10 x0 x1 xs0) (k0_pay11 x0 x1 xs0) xs2 (ix2 r d) = newAcc x0 x1 x2 xs0 xs2 r d := by
  unfold k0_pay1 newAcc
  rw [shapeCast_self, addf_apply, mulf_apply, Cert.LibColumnLayout.broadcastTo_a1_ab_apply, accDot_apply, pay10_apply]
  congr 1
  refine Finset.sum_congr rfl fun k _ => ?_
  rw [truncf_apply, pay11_apply, pay7_apply]

/-- The result block at (0, r, d): the running weighted sum at (r, d) divided by the running sum of row r. -/
theorem payOut_apply (a : Vec Ideal S2048x64 .f32) (l : Vec Ideal S2048x1 .f32) :
    k0_pay3 a l (ix3 u r d) = Ideal.div (a (ix2 r d)) (l (ix2 r (0 : Fin 1))) := by
  unfold k0_pay3
  rw [shapeCast_ab_1ab_apply, divf_apply, Cert.LibColumnLayout.broadcastTo_a1_ab_apply]

/-- The running maximum starts at minus infinity. -/
theorem payInitMax_apply : k0_pay4 (F := Ideal) (ix2 r u) = cNegInf := by
  unfold k0_pay4
  rw [shapeCast_self]
  rfl

/-- The running sum starts at zero. -/
theorem payInitSum_apply : k0_pay5 (F := Ideal) (ix2 r u) = cZero := by
  unfold k0_pay5
  rw [shapeCast_self]
  rfl

/-- The running weighted sum starts at zero. -/
theorem payInitAcc_apply : k0_pay6 (F := Ideal) (ix2 r d) = cZero := by
  unfold k0_pay6
  rw [shapeCast_self]
  rfl

end Cert.KernelIdeal.Payloads

end
-- ==== Proof.Reshape.lean ====
import proofs.«137079_j57234734187137_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-!
# The reshape between (batch, head, row, feature) and (slice, row, feature)

A reshape keeps every element's row-major position. Between [4, 8, 2048, 64] and [32, 2048, 64] the position of
(b, h, r, d) is ((b * 8 + h) * 2048 + r) * 64 + d, which is the position of (8 * b + h, r, d): slice 8 * b + h of the
flat array is head h of batch b, rows and features unchanged. The three arrays the kernel region finds are the three
arguments reshaped this way, because the only host operations before the region are those three reshapes and each
writes its own array.
-/

set_option maxRecDepth 16384

noncomputable section

namespace Cert.KernelIdeal.Reshape

open Idealize.ShloMosaic Idealize.ShloMosaic.TcCoe Idealize.SL.Sem Idealize.ShloMosaic.ValueIdx Cert.KernelIdeal Cert.KernelIdeal.Gen
open Idealize.ShloMosaic.Pipeline (Dat)

/-- The slice of the flat array that holds head h of batch b. -/
def slice (b : Fin 4) (h : Fin 8) : Fin 32 := ⟨8 * b.val + h.val, by have := b.isLt; have := h.isLt; omega⟩

/-- The reshape into slices reads, at (slice b h, r, d), the array at (b, h, r, d): both have row-major position
    ((8 * b + h) * 2048 + r) * 64 + d. -/
theorem reshape_in {α : Type} (x : S4x8x2048x64.Idx → α) (b : Fin 4) (h : Fin 8) (r : Fin 2048) (d : Fin 64) :
    shapeCast S32x2048x64 x shapeCasts_S4x8x2048x64_S32x2048x64 (ix3 (slice b h) r d) = x (ix4 b h r d) :=
  shapeCast_apply x _ _ _ (by
    rw [Shape.rowMajor_val_four, Shape.rowMajor_val_three]
    show ((b.val * 8 + h.val) * 2048 + r.val) * 64 + d.val = ((8 * b.val + h.val) * 2048 + r.val) * 64 + d.val
    omega)

/-- The reshape back reads, at (b, h, r, d), the flat array at (slice b h, r, d). -/
theorem reshape_out {α : Type} (y : S32x2048x64.Idx → α) (b : Fin 4) (h : Fin 8) (r : Fin 2048) (d : Fin 64) :
    shapeCast S4x8x2048x64 y shapeCasts_S32x2048x64_S4x8x2048x64 (ix4 b h r d) = y (ix3 (slice b h) r d) :=
  shapeCast_apply y _ _ _ (by
    rw [Shape.rowMajor_val_four, Shape.rowMajor_val_three]
    show ((8 * b.val + h.val) * 2048 + r.val) * 64 + d.val = ((b.val * 8 + h.val) * 2048 + r.val) * 64 + d.val
    omega)

variable {F : FTy → Type} [FloatOps F]
variable (m : (ℓ : Loc nD τ sig) → Buf (Elt F) ℓ)

/-- The query array the region finds is the first argument reshaped into slices. -/
theorem entry_q (c : Dev nD) : (V m c main_v0 : S32x2048x64.Idx → Elt F .f32)
    = shapeCast S32x2048x64 (m ((c : Thread nD τ).loc main_arg0)) shapeCasts_S4x8x2048x64_S32x2048x64 := by
  show StableHlo.after hostOps0 (fun b => m (c, b)) (Proc.devRef .tc main_v0) = _
  after_results
  rfl

/-- The key array the region finds is the second argument reshaped into slices. -/
theorem entry_k (c : Dev nD) : (V m c main_v1 : S32x2048x64.Idx → Elt F .f32)
    = shapeCast S32x2048x64 (m ((c : Thread nD τ).loc main_arg1)) shapeCasts_S4x8x2048x64_S32x2048x64 := by
  show StableHlo.after hostOps0 (fun b => m (c, b)) (Proc.devRef .tc main_v1) = _
  after_results
  rfl

/-- The value array the region finds is the third argument reshaped into slices. -/
theorem entry_v (c : Dev nD) : (V m c main_v2 : S32x2048x64.Idx → Elt F .f32)
    = shapeCast S32x2048x64 (m ((c : Thread nD τ).loc main_arg2)) shapeCasts_S4x8x2048x64_S32x2048x64 := by
  show StableHlo.after hostOps0 (fun b => m (c, b)) (Proc.devRef .tc main_v2) = _
  after_results
  rfl

end Cert.KernelIdeal.Reshape

end
-- ==== Proof.BlockRead.lean ====
/-
  The windows' blocks of the query, key and value arrays, read at an index.

  The grid has 64 points; point t works on slice t / 2 of the 32 slices and on key tile t % 2 of the two tiles of 1024 key
  rows. An element of a window's block at block coordinate y sits, on each axis, at array coordinate
  (block index) × (block size) + y. The query window's block index at t is (t / 2, 0, 0) with block size [1, 2048, 64], so
  its element (0, r, d) is the array's (t / 2, r, d). The key and value windows' block index at t is (t / 2, t % 2, 0) with
  block size [1, 1024, 64], so their element (0, j, d) is the array's (t / 2, 1024 · (t % 2) + j, d).
-/
import proofs.«137079_j57234734187137_2_alg».proof.Proof.Gen.KernelIdeal.Frame
import Idealize.ShloMosaic.Lib.Pipeline.Value
import Idealize.ShloMosaic.Lib.ValueIdx

set_option maxRecDepth 16384

noncomputable section

namespace Cert.KernelIdeal.BlockRead

open Idealize.ShloMosaic Idealize.ShloMosaic.TcCoe Idealize.SL.Sem Idealize.ShloMosaic.ValueIdx Cert.KernelIdeal Cert.KernelIdeal.Gen
open Idealize.ShloMosaic.Pipeline (Dat)

variable {F : FTy → Type} [FloatOps F]
variable (m : (ℓ : Loc nD τ sig) → Buf (Elt F) ℓ)

/-- The three input windows' block indices at grid point t, decided over the 64 points: the query's is (t / 2, 0, 0), the
    key's and the value's are (t / 2, t % 2, 0). -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N, _)

/-- The query window's block at point t, at (0, r, d), is the flat query array at (t / 2, r, d). -/
theorem qblock_apply (c : Dev nD) (t : Fin cfg0.N) (n : Fin 32) (hn : t.val / 2 = n.val) (r : Fin 2048) (d : Fin 64) :
    (iblk m c 0 t : Vec F S1x2048x64 .f32) (ix3 (0 : Fin 1) r d) = (V m c main_v0 : S32x2048x64.Idx → Elt F .f32) (ix3 n r d) := by
  obtain ⟨e0, e1, e2, -⟩ := idx_facts t
  unfold iblk
  rw [View.read_apply]
  show V m c main_v0 _ = V m c main_v0 _
  refine congrArg _ ?_
  funext a; apply Fin.ext
  match a with
  | ⟨0, _⟩ => show win0_0.index t (0 : Fin 3) * 1 + 1 * 0 = n.val; rw [e0]; omega
  | ⟨1, _⟩ => show win0_0.index t (1 : Fin 3) * 2048 + 1 * r.val = r.val; rw [e1]; omega
  | ⟨2, _⟩ => show win0_0.index t (2 : Fin 3) * 64 + 1 * d.val = d.val; rw [e2]; omega

/-- The key window's block at point t, at (0, j, d), is the flat key array at (t / 2, 1024 · (t % 2) + j, d). -/
theorem kblock_apply (c : Dev nD) (t : Fin cfg0.N) (n : Fin 32) (hn : t.val / 2 = n.val) (krow : Fin 2048) (j : Fin 1024)
    (hk : krow.val = 1024 * (t.val % 2) + j.val) (d : Fin 64) :
    (iblk m c 1 t : Vec F S1x1024x64 .f32) (ix3 (0 : Fin 1) j d) = (V m c main_v1 : S32x2048x64.Idx → Elt F .f32) (ix3 n krow d) := by
  obtain ⟨-, -, -, e0, e1, e2, -⟩ := idx_facts t
  unfold iblk
  rw [View.read_apply]
  show V m c main_v1 _ = V m c main_v1 _
  refine congrArg _ ?_
  funext a; apply Fin.ext
  match a with
  | ⟨0, _⟩ => show win0_1.index t (0 : Fin 3) * 1 + 1 * 0 = n.val; rw [e0]; omega
  | ⟨1, _⟩ => show win0_1.index t (1 : Fin 3) * 1024 + 1 * j.val = krow.val; rw [e1]; omega
  | ⟨2, _⟩ => show win0_1.index t (2 : Fin 3) * 64 + 1 * d.val = d.val; rw [e2]; omega

/-- The value window's block at point t, at (0, j, d), is the flat value array at (t / 2, 1024 · (t % 2) + j, d). -/
theorem vblock_apply (c : Dev nD) (t : Fin cfg0.N) (n : Fin 32) (hn : t.val / 2 = n.val) (krow : Fin 2048) (j : Fin 1024)
    (hk : krow.val = 1024 * (t.val % 2) + j.val) (d : Fin 64) :
    (iblk m c 2 t : Vec F S1x1024x64 .f32) (ix3 (0 : Fin 1) j d) = (V m c main_v2 : S32x2048x64.Idx → Elt F .f32) (ix3 n krow d) := by
  obtain ⟨-, -, -, -, -, -, e0, e1, e2⟩ := idx_facts t
  unfold iblk
  rw [View.read_apply]
  show V m c main_v2 _ = V m c main_v2 _
  refine congrArg _ ?_
  funext a; apply Fin.ext
  match a with
  | ⟨0, _⟩ => show win0_2.index t (0 : Fin 3) * 1 + 1 * 0 = n.val; rw [e0]; omega
  | ⟨1, _⟩ => show win0_2.index t (1 : Fin 3) * 1024 + 1 * j.val = krow.val; rw [e1]; omega
  | ⟨2, _⟩ => show win0_2.index t (2 : Fin 3) * 64 + 1 * d.val = d.val; rw [e2]; omega

end Cert.KernelIdeal.BlockRead

end
-- ==== Proof.OutputSide.lean ====
/-
  The output side of the idealized kernel's pipeline: where the output window's blocks sit in the flat result array,
  that the blocks written back cover it, and what the program's result is in terms of it.
-/
import proofs.«137079_j57234734187137_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-!
# The output side

The grid has 64 points; point t works on slice t / 2 of the 32 slices (batch and head flattened) and on key tile
t % 2. The output window's block at point t is the whole slice t / 2 of the flat result array of shape
[32, 2048, 64]: rows 0 … 2047 and features 0 … 63. The block is written back at the odd points, one per slice, so the
32 blocks written back cover the flat result array. After the region the program reshapes the flat result array back
to [4, 8, 2048, 64]; nothing after the region touches the three arguments.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutputSide

open Cert.KernelIdeal Cert.KernelIdeal.Gen

variable {F : FTy → Type} [FloatOps F]
variable (m : (ℓ : Loc nD τ sig) → Buf (Elt F) ℓ)

/-- The output window's block index at point t, decided over the 64 points of the grid: slice t / 2 on the slice
    axis, 0 on the row and feature axes. -/
theorem out_index : ∀ t : Fin cfg0.N, win0_3.index t (0 : Fin 3) = t.val / 2
    ∧ win0_3.index t (1 : Fin 3) = 0 ∧ win0_3.index t (2 : Fin 3) = 0 :=
  (by decide +kernel : ∀ t : Fin grid0.N, _)

/-- Element (u, r, d) of the output window's block at point t is element (t / 2, r, d) of the flat result array:
    on each axis the array coordinate is block index × block extent + the coordinate inside the block, and the
    block has extent 1 on the slice axis and index 0 on the other two. -/
theorem outblock_emb (t : Fin cfg0.N) (n : Fin 32) (hn : t.val / 2 = n.val) (u : Fin 1) (r : Fin 2048) (d : Fin 64) :
    ((cfg0.win 3).blk t).view.emb (ix3 u r d) = (ix3 n r d : S32x2048x64.Idx) := by
  obtain ⟨e0, e1, e2⟩ := out_index t
  have hu : u.val = 0 := by omega
  funext a; apply Fin.ext
  match a with
  | ⟨0, _⟩ => show win0_3.index t (0 : Fin 3) * 1 + 1 * u.val = n.val; omega
  | ⟨1, _⟩ => show win0_3.index t (1 : Fin 3) * 2048 + 1 * r.val = r.val; omega
  | ⟨2, _⟩ => show win0_3.index t (2 : Fin 3) * 64 + 1 * d.val = d.val; omega

/-- An index of the flat result array is in the output window's block at point t iff on every axis its coordinate
    lies in the block's range: from block index × block extent, for one block extent. -/
theorem mem_outblock (t : Fin cfg0.N) (i : S32x2048x64.Idx) :
    i ∈ ((cfg0.win 3).blk t).view.set ↔ ∀ a : Fin 3, win0_3.index t a * S1x2048x64.size a ≤ (i a).val ∧ (i a).val < win0_3.index t a * S1x2048x64.size a + S1x2048x64.size a := by
  show i ∈ ((View.whole main_v3).slice (win0_3.rect t)).set ↔ _
  rw [View.set_slice_whole, Rect.mem_set_unit]
  exact Iff.rfl

/-- The blocks written back cover the flat result array: the index (s, r, d) lies in the block of the odd point
    2 s + 1, which is slice s whole and is written back. -/
theorem out_cover (i : S32x2048x64.Idx) :
    ∃ t : Fin cfg0.N, (cfg0.win 3).flush t = true ∧ i ∈ ((cfg0.win 3).blk t).view.set := by
  have hN : cfg0.N = 64 := N_0
  have hi0 : (i 0).val < 32 := (i 0).isLt
  have hi1 : (i 1).val < 2048 := (i 1).isLt
  have hi2 : (i 2).val < 64 := (i 2).isLt
  have ht : 2 * (i 0).val + 1 < cfg0.N := by rw [hN]; omega
  refine ⟨⟨2 * (i 0).val + 1, ht⟩, (flush0_3 _).mpr (by show (2 * (i 0).val + 1) % 2 = 1; omega), ?_⟩
  obtain ⟨e0, e1, e2⟩ := out_index ⟨2 * (i 0).val + 1, ht⟩
  have e0' : win0_3.index ⟨2 * (i 0).val + 1, ht⟩ (0 : Fin 3) = (i 0).val := by
    rw [e0]; show (2 * (i 0).val + 1) / 2 = (i 0).val; omega
  rw [mem_outblock]
  intro a
  match a with
  | ⟨0, _⟩ => show win0_3.index ⟨2 * (i 0).val + 1, ht⟩ (0 : Fin 3) * 1 ≤ (i 0).val ∧ (i 0).val < win0_3.index ⟨2 * (i 0).val + 1, ht⟩ (0 : Fin 3) * 1 + 1; omega
  | ⟨1, _⟩ => show win0_3.index ⟨2 * (i 0).val + 1, ht⟩ (1 : Fin 3) * 2048 ≤ (i 1).val ∧ (i 1).val < win0_3.index ⟨2 * (i 0).val + 1, ht⟩ (1 : Fin 3) * 2048 + 2048; omega
  | ⟨2, _⟩ => show win0_3.index ⟨2 * (i 0).val + 1, ht⟩ (2 : Fin 3) * 64 ≤ (i 2).val ∧ (i 2).val < win0_3.index ⟨2 * (i 0).val + 1, ht⟩ (2 : Fin 3) * 64 + 64; omega

/-- The program's result: the one operation after the region reshapes the flat result array, as the region leaves
    it, back to [4, 8, 2048, 64]. -/
theorem tail_eq (c : Dev nD) :
    Pipeline.afterTail₀ cfgs (dats m) 0 (V0 m) [hostOps1] c main_v4
      = shapeCast S4x8x2048x64 ((dats m 0 c).arrAt 3 cfg0.N) shapeCasts_S32x2048x64_S4x8x2048x64 := by
  unfold Pipeline.afterTail₀
  show StableHlo.after hostOps1 _ (Proc.devRef .tc main_v4) = _
  after_results
  have h : Pipeline.withArrays spec0 c (V0 m c) (fun w => (dats m 0 c).arrAt w cfg0.N) (Proc.devRef .tc main_v3)
      = (dats m 0 c).arrAt 3 cfg0.N := Pipeline.withArrays_arr spec0 launch0.win.arr_inj c _ _ 3
  exact congrArg (fun x : S32x2048x64.Idx → Elt F .f32 =>
    shapeCast S4x8x2048x64 x shapeCasts_S32x2048x64_S4x8x2048x64) h

/-- Nothing before, in or after the region writes the three arguments: they end as launched. -/
theorem args_kept (c : Dev nD) :
    Pipeline.afterTail₀ cfgs (dats m) 0 (V0 m) [hostOps1] c main_arg0 = m ((c : Thread nD τ).loc main_arg0)
    ∧ Pipeline.afterTail₀ cfgs (dats m) 0 (V0 m) [hostOps1] c main_arg1 = m ((c : Thread nD τ).loc main_arg1)
    ∧ Pipeline.afterTail₀ cfgs (dats m) 0 (V0 m) [hostOps1] c main_arg2 = m ((c : Thread nD τ).loc main_arg2) :=
  ⟨W_main_arg0 m (dats m) c, W_main_arg1 m (dats m) c, W_main_arg2 m (dats m) c⟩

/-- The result buffer and the three arguments are unscoped buffers that are no window's array: they bypass the
    region. -/
theorem rest_v4 : main_v4 ∈ Pipeline.restRefs sig spec0 ∧ main_arg0 ∈ Pipeline.restRefs sig spec0
    ∧ main_arg1 ∈ Pipeline.restRefs sig spec0 ∧ main_arg2 ∈ Pipeline.restRefs sig spec0 :=
  ⟨Pipeline.mem_restRefs_of main_v4 (by decide) (by decide), Pipeline.mem_restRefs_of main_arg0 (by decide) (by decide),
    Pipeline.mem_restRefs_of main_arg1 (by decide) (by decide), Pipeline.mem_restRefs_of main_arg2 (by decide) (by decide)⟩

end Cert.KernelIdeal.OutputSide

end
-- ==== Proof.KernelValue.lean ====
/-
  The kernel's result, read off its run.

  Grid point 2n handles slice n = 8b + h (batch b, head h) and the first 1024 key rows, point 2n + 1 the same slice
  and the last 1024. Read at a query row r (and a feature d), the blocks the windows stage are rows of the three
  argument arrays, so one tile's scores are the reference's scores of that tile's key rows; the buffers carried out of
  point 2n are the running maximum, sum and weighted sum after the first tile, and the block point 2n + 1 writes back is
  the weighted sum after both tiles divided by the sum after both: the kernel's arrangement `kernOut` of the attention
  row. The 32 odd points' blocks cover the flat result array, which therefore ends holding `kernOut` everywhere; the
  program's result is that array reshaped to [4, 8, 2048, 64].
-/
import proofs.«137079_j57234734187137_2_alg».proof.Proof.Carried
import proofs.«137079_j57234734187137_2_alg».proof.Proof.Payloads
import proofs.«137079_j57234734187137_2_alg».proof.Proof.Reshape
import proofs.«137079_j57234734187137_2_alg».proof.Proof.BlockRead
import proofs.«137079_j57234734187137_2_alg».proof.Proof.OutputSide
import proofs.«137079_j57234734187137_2_alg».proof.Proof.AttentionSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.AttentionSpec Cert.KernelIdeal.Carried Cert.KernelIdeal.Payloads
open Cert.KernelIdeal.Reshape Cert.KernelIdeal.BlockRead Cert.KernelIdeal.OutputSide

variable (m : (ℓ : Loc nD τ sig) → Buf (Elt Ideal) ℓ) (ρ : Dev nD → PrngReg)

/-- The three argument arrays on core c. -/
abbrev aq (c : Dev nD) : SArr.Idx → EReal := m ((c : Thread nD τ).loc main_arg0)
abbrev ak (c : Dev nD) : SArr.Idx → EReal := m ((c : Thread nD τ).loc main_arg1)
abbrev av (c : Dev nD) : SArr.Idx → EReal := m ((c : Thread nD τ).loc main_arg2)

/-! ## The staged blocks are rows of the arguments -/

/-- Row r of the query block at a point of slice 8b + h is row r of q[b, h]. -/
theorem qrow (c : Dev nD) (t : Fin cfg0.N) (b : Fin 4) (h : Fin 8) (ht : t.val / 2 = (slice b h).val) (r : Fin 2048) (d : Fin 64) :
    (iblk m c 0 t : Vec Ideal S1x2048x64 .f32) (ix3 (0 : Fin 1) r d) = aq m c (ix4 b h r d) := by
  rw [qblock_apply m c t (slice b h) ht r d, entry_q m c]
  exact reshape_in _ b h r d

/-- Row j of the key block at a point of slice 8b + h and tile t % 2 is key row 1024 (t % 2) + j of k[b, h]. -/
theorem krow (c : Dev nD) (t : Fin cfg0.N) (b : Fin 4) (h : Fin 8) (ht : t.val / 2 = (slice b h).val) (kr : Fin 2048) (j : Fin 1024)
    (hk : kr.val = 1024 * (t.val % 2) + j.val) (d : Fin 64) :
    (iblk m c 1 t : Vec Ideal S1x1024x64 .f32) (ix3 (0 : Fin 1) j d) = ak m c (ix4 b h kr d) := by
  rw [kblock_apply m c t (slice b h) ht kr j hk d, entry_k m c]
  exact reshape_in _ b h kr d

/-- The same of the value block. -/
theorem vrow (c : Dev nD) (t : Fin cfg0.N) (b : Fin 4) (h : Fin 8) (ht : t.val / 2 = (slice b h).val) (kr : Fin 2048) (j : Fin 1024)
    (hk : kr.val = 1024 * (t.val % 2) + j.val) (d : Fin 64) :
    (iblk m c 2 t : Vec Ideal S1x1024x64 .f32) (ix3 (0 : Fin 1) j d) = av m c (ix4 b h kr d) := by
  rw [vblock_apply m c t (slice b h) ht kr j hk d, entry_v m c]
  exact reshape_in _ b h kr d

/-- So a tile's scores are the reference's scores of the tile's key rows. -/
theorem tile_score (c : Dev nD) (t : Fin cfg0.N) (b : Fin 4) (h : Fin 8) (ht : t.val / 2 = (slice b h).val)
    (kr : Fin 1024 → Fin 2048) (hk : ∀ j, (kr j).val = 1024 * (t.val % 2) + j.val) (r : Fin 2048) (j : Fin 1024) :
    tileScore (iblk m c 0 t) (iblk m c 1 t) r j = score (aq m c) (ak m c) b h r (kr j) := by
  unfold tileScore score
  refine Finset.sum_congr rfl fun d _ => ?_
  rw [qrow m c t b h ht r d, krow m c t b h ht (kr j) j (hk j) d]

theorem lo_val (t : Fin cfg0.N) (h0 : t.val % 2 = 0) (j : Fin 1024) : (lo j).val = 1024 * (t.val % 2) + j.val := by
  rw [h0]; show j.val = 1024 * 0 + j.val; omega
theorem hi_val (t : Fin cfg0.N) (h1 : t.val % 2 = 1) (j : Fin 1024) : (hi j).val = 1024 * (t.val % 2) + j.val := by
  rw [h1]; show 1024 + j.val = 1024 * 1 + j.val; omega

/-! ## After the first tile (an even point) -/

section First
variable (c : Dev nD) (t : Fin cfg0.N) (b : Fin 4) (h : Fin 8) (ht : t.val / 2 = (slice b h).val) (h0 : t.val % 2 = 0)
include ht h0

/-- The running maximum after the first tile. -/
theorem max_first (r : Fin 2048) :
    newMax (iblk m c 0 t) (iblk m c 1 t) (k0_pay4 (F := Ideal)) r = max1 (aq m c) (ak m c) b h r := by
  unfold newMax max1
  rw [payInitMax_apply r (0 : Fin 1)]
  refine congrArg (max cNegInf) ?_
  refine congrArg (fun f => (Finset.univ : Finset (Fin 1024)).fold max cNegInf f) ?_
  exact funext fun j => tile_score m c t b h ht lo (lo_val t h0) r j

/-- The running sum after the first tile. -/
theorem sum_first (r : Fin 2048) :
    newSum (iblk m c 0 t) (iblk m c 1 t) (k0_pay4 (F := Ideal)) (k0_pay5 (F := Ideal)) r = sum1 (aq m c) (ak m c) b h r := by
  unfold newSum sum1
  rw [payInitMax_apply r (0 : Fin 1), payInitSum_apply r (0 : Fin 1), max_first m c t b h ht h0 r]
  refine congrArg (_ + ·) (Finset.sum_congr rfl fun j _ => ?_)
  rw [tile_score m c t b h ht lo (lo_val t h0) r j]

/-- The running weighted sum after the first tile. -/
theorem acc_first (r : Fin 2048) (d : Fin 64) :
    newAcc (iblk m c 0 t) (iblk m c 1 t) (iblk m c 2 t) (k0_pay4 (F := Ideal)) (k0_pay6 (F := Ideal)) r d
      = acc1 (aq m c) (ak m c) (av m c) b h r d := by
  unfold newAcc acc1
  rw [payInitMax_apply r (0 : Fin 1), payInitAcc_apply r d, max_first m c t b h ht h0 r]
  refine congrArg (_ + ·) (Finset.sum_congr rfl fun j _ => ?_)
  rw [tile_score m c t b h ht lo (lo_val t h0) r j, vrow m c t b h ht (lo j) j (lo_val t h0 j) d]

/-- What the three carried buffers hold after the point, read at a row. -/
theorem firstMax_apply (r : Fin 2048) (u : Fin 1) : firstMax m c t (ix2 r u) = max1 (aq m c) (ak m c) b h r := by
  have p := payMax_apply (iblk m c 0 t) (iblk m c 1 t) (k0_pay4 (F := Ideal)) r u
  unfold firstMax
  exact p.trans (max_first m c t b h ht h0 r)
theorem firstSum_apply (r : Fin 2048) (u : Fin 1) : firstSum m c t (ix2 r u) = sum1 (aq m c) (ak m c) b h r := by
  have p := paySum_apply (iblk m c 0 t) (iblk m c 1 t) (k0_pay4 (F := Ideal)) (k0_pay5 (F := Ideal)) r u
  unfold firstSum
  exact p.trans (sum_first m c t b h ht h0 r)
theorem firstAcc_apply (r : Fin 2048) (d : Fin 64) : firstAcc m c t (ix2 r d) = acc1 (aq m c) (ak m c) (av m c) b h r d := by
  have p := payAcc_apply (iblk m c 0 t) (iblk m c 1 t) (iblk m c 2 t) (k0_pay4 (F := Ideal)) (k0_pay6 (F := Ideal)) r d
  unfold firstAcc
  exact p.trans (acc_first m c t b h ht h0 r d)

end First

/-! ## After the second tile (the odd point that follows) -/

section Second
variable (c : Dev nD) (t : Fin cfg0.N) (b : Fin 4) (h : Fin 8) (ht : t.val / 2 = (slice b h).val) (h1 : t.val % 2 = 1)
include ht h1

theorem prev_slice : (prev t).val / 2 = (slice b h).val := by show (t.val - 1) / 2 = _; omega
theorem prev_even : (prev t).val % 2 = 0 := by show (t.val - 1) % 2 = 0; omega

/-- The running maximum after both tiles. -/
theorem max_second (r : Fin 2048) :
    newMax (iblk m c 0 t) (iblk m c 1 t) (firstMax m c (prev t)) r = max2 (aq m c) (ak m c) b h r := by
  unfold newMax max2
  rw [firstMax_apply m c (prev t) b h (prev_slice t b h ht h1) (prev_even t b h ht h1) r (0 : Fin 1)]
  refine congrArg (max _) ?_
  refine congrArg (fun f => (Finset.univ : Finset (Fin 1024)).fold max cNegInf f) ?_
  exact funext fun j => tile_score m c t b h ht hi (hi_val t h1) r j

/-- The running sum after both tiles. -/
theorem sum_second (r : Fin 2048) :
    newSum (iblk m c 0 t) (iblk m c 1 t) (firstMax m c (prev t)) (firstSum m c (prev t)) r = sum2 (aq m c) (ak m c) b h r := by
  unfold newSum sum2
  rw [firstMax_apply m c (prev t) b h (prev_slice t b h ht h1) (prev_even t b h ht h1) r (0 : Fin 1),
    firstSum_apply m c (prev t) b h (prev_slice t b h ht h1) (prev_even t b h ht h1) r (0 : Fin 1), max_second m c t b h ht h1 r]
  refine congrArg (_ + ·) (Finset.sum_congr rfl fun j _ => ?_)
  rw [tile_score m c t b h ht hi (hi_val t h1) r j]

/-- The running weighted sum after both tiles. -/
theorem acc_second (r : Fin 2048) (d : Fin 64) :
    newAcc (iblk m c 0 t) (iblk m c 1 t) (iblk m c 2 t) (firstMax m c (prev t)) (firstAcc m c (prev t)) r d
      = acc2 (aq m c) (ak m c) (av m c) b h r d := by
  unfold newAcc acc2
  rw [firstMax_apply m c (prev t) b h (prev_slice t b h ht h1) (prev_even t b h ht h1) r (0 : Fin 1),
    firstAcc_apply m c (prev t) b h (prev_slice t b h ht h1) (prev_even t b h ht h1) r d, max_second m c t b h ht h1 r]
  refine congrArg (_ + ·) (Finset.sum_congr rfl fun j _ => ?_)
  rw [tile_score m c t b h ht hi (hi_val t h1) r j, vrow m c t b h ht (hi j) j (hi_val t h1 j) d]

/-- The block the odd point writes back, read at a row and a feature, is the kernel's arrangement of the attention row. -/
theorem out_apply (u : Fin 1) (r : Fin 2048) (d : Fin 64) :
    ((outsAt0 m c t.val t.isLt).1 : Vec Ideal S1x2048x64 .f32) (ix3 u r d) = kernOut (aq m c) (ak m c) (av m c) b h r d := by
  have pA := payAcc_apply (iblk m c 0 t) (iblk m c 1 t) (iblk m c 2 t) (firstMax m c (prev t)) (firstAcc m c (prev t)) r d
  have pS := paySum_apply (iblk m c 0 t) (iblk m c 1 t) (firstMax m c (prev t)) (firstSum m c (prev t)) r (0 : Fin 1)
  rw [out_odd m c t h1]
  refine (payOut_apply r u d _ _).trans ?_
  unfold kernOut
  rw [pA, pS, acc_second m c t b h ht h1 r d, sum_second m c t b h ht h1 r]

end Second

/-! ## The flat result array -/

/-- The flat result array [32, 2048, 64]: slice n is (batch n / 8, head n % 8). -/
def G (c : Dev nD) : S32x2048x64.Idx → EReal := fun i =>
  kernOut (aq m c) (ak m c) (av m c)
    ⟨(i 0).val / 8, by have h : (i 0).val < 32 := (i 0).isLt; omega⟩ ⟨(i 0).val % 8, by omega⟩
    ⟨(i 1).val, (i 1).isLt⟩ ⟨(i 2).val, (i 2).isLt⟩

theorem G_apply (c : Dev nD) (b : Fin 4) (h : Fin 8) (r : Fin 2048) (d : Fin 64) :
    G m c (ix3 (slice b h) r d) = kernOut (aq m c) (ak m c) (av m c) b h r d := by
  have hb : (⟨(slice b h).val / 8, by have := (slice b h).isLt; omega⟩ : Fin 4) = b :=
    Fin.ext (by show (8 * b.val + h.val) / 8 = b.val; have := h.isLt; omega)
  have hh : (⟨(slice b h).val % 8, by omega⟩ : Fin 8) = h :=
    Fin.ext (by show (8 * b.val + h.val) % 8 = h.val; have := h.isLt; omega)
  show kernOut (aq m c) (ak m c) (av m c) ⟨(slice b h).val / 8, _⟩ ⟨(slice b h).val % 8, _⟩ ⟨r.val, _⟩ ⟨d.val, _⟩ = _
  rw [hb, hh]

/-- What an odd point writes back is its block of the flat result array. -/
theorem flushed_eq (c : Dev nD) (t : Fin cfg0.N) (hf : (cfg0.win 3).flush t = true) :
    (dats m 0 c).flushed 3 t = ((cfg0.win 3).blk t).view.read (Elt Ideal) (G m c) := by
  have h1 : t.val % 2 = 1 := (flush0_3 t).mp hf
  have hN : t.val < 64 := lt_of_lt_of_eq t.isLt (show cfg0.N = 64 from N_0)
  let b : Fin 4 := ⟨t.val / 2 / 8, by omega⟩
  let h : Fin 8 := ⟨t.val / 2 % 8, by omega⟩
  have ht : t.val / 2 = (slice b h).val := by show t.val / 2 = 8 * (t.val / 2 / 8) + t.val / 2 % 8; omega
  show (cfg0.win 3).cut (grid0.coords t) ((dats m 0 c).after 3 t) = _
  rw [after0_3]
  funext y
  obtain ⟨u, r, d, rfl⟩ : ∃ (u : Fin 1) (r : Fin 2048) (d : Fin 64), y = ix3 u r d := ⟨y 0, y 1, y 2, eq_ix3 y⟩
  rw [View.read_apply, outblock_emb t (slice b h) ht u r d, G_apply m c b h r d]
  exact out_apply m c t b h ht h1 u r d

/-- So the flat result array ends holding the kernel's arrangement of every attention row. -/
theorem final3 (c : Dev nD) : (dats m 0 c).arrAt 3 cfg0.N = G m c :=
  (dats m 0 c).arrAt_eq_of_cover 3 (G m c) (flushed_eq m c) out_cover

/-- The kernel's result [4, 8, 2048, 64] on core c: the flat array reshaped. -/
def result (c : Dev nD) : Buf (Elt Ideal) ((c : Thread nD τ).loc main_v4) :=
  shapeCast S4x8x2048x64 (G m c) shapeCasts_S32x2048x64_S4x8x2048x64

theorem result_apply (c : Dev nD) (b : Fin 4) (h : Fin 8) (r : Fin 2048) (d : Fin 64) :
    (result m c : S4x8x2048x64.Idx → EReal) (ix4 b h r d) = kernOut (aq m c) (ak m c) (av m c) b h r d := by
  unfold result
  rw [reshape_out (G m c) b h r d, G_apply m c b h r d]

/-- The run, read: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 rest_v4.1).trans ((tail_eq m c).trans (by rw [final3 m c]; rfl)),
      ((h c).2 main_arg0 rest_v4.2.1).trans (args_kept m c).1,
      ((h c).2 main_arg1 rest_v4.2.2.1).trans (args_kept m c).2.1,
      ((h c).2 main_arg2 rest_v4.2.2.2).trans (args_kept m c).2.2⟩) (run_main m ρ)

end Cert.KernelIdeal.KValue

end
-- ==== Proof.RefValue.lean ====
/-
  The reference program read at an index.

  The reference computes, for a batch b, a head h, a query row r and a feature d:
  the scores s j = ∑ d', (q[b,h,r,d'] * 1/8) * k[b,h,j,d'] over the 2048 key rows j; the row's maximum M, folded by max from
  minus infinity and then taken once more against minus infinity; the exponentials exp (s j - M); their sum D from zero;
  and the result ∑ j, (exp (s j - M) / D) * v[b,h,j,d]. Each stage below is read at an index from the stage before it, and the
  last one is the function `refOut`.
-/
import proofs.«137079_j57234734187137_2_alg».proof.Proof.Gen.ReferenceIdeal.Read
import proofs.«137079_j57234734187137_2_alg».proof.Proof.AttentionSpec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.AttentionSpec

/-! ## Index equations -/

/-- Left operand of the first product at (b, h, r, j), feature d: the query entry (b, h, r, d). -/
theorem lidx_v2 (b : Fin 4) (h : Fin 8) (r j : Fin 2048) (d : Fin 64) :
    Read.lidx_main_v2 (ix4 b h r j) d = ix4 b h r d :=
  funext fun a => Fin.ext (by match a with | ⟨0, _⟩ => rfl | ⟨1, _⟩ => rfl | ⟨2, _⟩ => rfl | ⟨3, _⟩ => rfl)

/-- Right operand of the first product at (b, h, r, j), feature d: the key entry (b, h, j, d). -/
theorem ridx_v2 (b : Fin 4) (h : Fin 8) (r j : Fin 2048) (d : Fin 64) :
    Read.ridx_main_v2 (ix4 b h r j) d = ix4 b h j d :=
  funext fun a => Fin.ext (by match a with | ⟨0, _⟩ => rfl | ⟨1, _⟩ => rfl | ⟨2, _⟩ => rfl | ⟨3, _⟩ => rfl)

/-! ## The scores -/

/-- The first product at (b, h, r, j) is the score of key row j for query row r. -/
theorem score_apply (x0 x1 : (⟨S4x8x2048x64, .f32⟩ : BufTy).Contents (Elt Ideal)) (b : Fin 4) (h : Fin 8) (r j : Fin 2048) :
    Read.val_main_v2 (F := Ideal) x0 x1 (ix4 b h r j) = score x0 x1 b h r j := by
  rw [Read.val_main_v2_apply]
  unfold score
  refine Finset.sum_congr rfl fun d _ => ?_
  rw [Read.val_main_v1_apply, Read.val_main_v0_apply, Read.val_main_cst_apply, lidx_v2, ridx_v2]
  rfl

/-! ## The row maximum -/

/-- The reduced index (b, h, r) with key row k put back on the last axis is (b, h, r, k). -/
theorem lift_v3 (hR : S4x8x2048x2048.Reduces [3] S4x8x2048) (b : Fin 4) (h : Fin 8) (r : Fin 2048)
    (k : Fin (S4x8x2048x2048.size 3)) : hR.lift (ix3 b h r) k = ix4 b h r (⟨k.val, k.isLt⟩ : Fin 2048) := by
  funext c; apply Fin.ext
  fin_cases c <;> rfl

/-- A reduce by max over the last axis of a [4, 8, 2048, 2048] array, from minus infinity, at (b, h, r): the fold of max
    over the row's 2048 entries. -/
theorem rowFold (y : FVec Ideal S4x8x2048x2048 .f32) (b : Fin 4) (h : Fin 8) (r : Fin 2048) :
    Host.reduce FloatOps.maximumf y (constant (F := Ideal) S_ .f32 0xFF800000#32)
        Gen.reducesTo_S4x8x2048x2048_S4x8x2048_d3 Gen.h_S_ (ix3 b h r)
      = (Finset.univ : Finset (Fin 2048)).fold max cNegInf (fun j => y (ix4 b h r j)) := by
  have hR : S4x8x2048x2048.Reduces [3] S4x8x2048 := by decide
  rw [Host.reduce_eq_fold_single FloatOps.maximumf y _ Gen.reducesTo_S4x8x2048x2048_S4x8x2048_d3 hR Gen.h_S_]
  have hf : (y ∘ hR.lift (ix3 b h r)) = fun k : Fin 2048 => y (ix4 b h r k) :=
    funext fun k => congrArg y (lift_v3 hR b h r k)
  exact congrArg (fun f => Finset.fold max cNegInf f (Finset.univ : Finset (Fin 2048))) hf

/-- The program's reduce by max, at (b, h, r): the fold of max over the row's scores' entries. -/
theorem v3_apply (x0 x1 : (⟨S4x8x2048x64, .f32⟩ : BufTy).Contents (Elt Ideal)) (b : Fin 4) (h : Fin 8) (r : Fin 2048) :
    Read.val_main_v3 (F := Ideal) x0 x1 (ix3 b h r)
      = (Finset.univ : Finset (Fin 2048)).fold max cNegInf (fun j => Read.val_main_v2 (F := Ideal) x0 x1 (ix4 b h r j)) :=
  rowFold (Read.val_main_v2 (F := Ideal) x0 x1) b h r

/-- The maximum against minus infinity of that fold, at (b, h, r), is the row's maximum as the specification takes it. -/
theorem max_apply (x0 x1 : (⟨S4x8x2048x64, .f32⟩ : BufTy).Contents (Elt Ideal)) (b : Fin 4) (h : Fin 8) (r : Fin 2048) :
    Read.val_main_v5 (F := Ideal) x0 x1 (ix3 b h r) = rowMax x0 x1 b h r := by
  rw [Read.val_main_v5_apply, Read.val_main_v4_apply, Read.val_main_cst_1_apply, v3_apply]
  unfold rowMax
  have hs : (fun j => Read.val_main_v2 (F := Ideal) x0 x1 (ix4 b h r j)) = fun j => score x0 x1 b h r j :=
    funext fun j => score_apply x0 x1 b h r j
  rw [hs]
  rfl

/-! ## The exponentials and their sum -/

/-- The two broadcasts of the row maximum read it, at (b, h, r, j), at (b, h, r). -/
theorem idx_v6_v7 (b : Fin 4) (h : Fin 8) (r j : Fin 2048) :
    Read.idx_main_v6 (Read.idx_main_v7 (ix4 b h r j)) = ix3 b h r :=
  funext fun a => Fin.ext (by match a with | ⟨0, _⟩ => rfl | ⟨1, _⟩ => rfl | ⟨2, _⟩ => rfl)

/-- The exponential at (b, h, r, j): exp (score j - row maximum). -/
theorem exp_apply (x0 x1 : (⟨S4x8x2048x64, .f32⟩ : BufTy).Contents (Elt Ideal)) (b : Fin 4) (h : Fin 8) (r j : Fin 2048) :
    Read.val_main_v9 (F := Ideal) x0 x1 (ix4 b h r j) = Ideal.exp (score x0 x1 b h r j - rowMax x0 x1 b h r) := by
  rw [Read.val_main_v9_apply, Read.val_main_v8_apply, Read.val_main_v7_apply, Read.val_main_v6_apply, idx_v6_v7,
    score_apply, max_apply]
  rfl

/-- The sum's operand at (b, h, r), key row j, is entry (b, h, r, j). -/
theorem idx_v10 (b : Fin 4) (h : Fin 8) (r j : Fin 2048) : Read.idx_main_v10 (ix3 b h r) j = ix4 b h r j :=
  funext fun a => Fin.ext (by match a with | ⟨0, _⟩ => rfl | ⟨1, _⟩ => rfl | ⟨2, _⟩ => rfl | ⟨3, _⟩ => rfl)

/-- The sum of the exponentials over the key axis, from zero, at (b, h, r). -/
theorem sum_apply (x0 x1 : (⟨S4x8x2048x64, .f32⟩ : BufTy).Contents (Elt Ideal)) (b : Fin 4) (h : Fin 8) (r : Fin 2048) :
    Read.val_main_v10 (F := Ideal) x0 x1 (ix3 b h r)
      = cZero + ∑ j : Fin 2048, Ideal.exp (score x0 x1 b h r j - rowMax x0 x1 b h r) := by
  rw [Read.val_main_v10_apply, Read.val_main_cst_2_apply]
  refine congrArg₂ (· + ·) rfl (Finset.sum_congr rfl fun j _ => ?_)
  rw [idx_v10, exp_apply]

/-! ## The result -/

/-- Left operand of the second product at (b, h, r, d), key row j: the weight (b, h, r, j). -/
theorem lidx_v14 (b : Fin 4) (h : Fin 8) (r : Fin 2048) (d : Fin 64) (j : Fin 2048) :
    Read.lidx_main_v14 (ix4 b h r d) j = ix4 b h r j :=
  funext fun a => Fin.ext (by match a with | ⟨0, _⟩ => rfl | ⟨1, _⟩ => rfl | ⟨2, _⟩ => rfl | ⟨3, _⟩ => rfl)

/-- Right operand of the second product at (b, h, r, d), key row j: the value entry (b, h, j, d). -/
theorem ridx_v14 (b : Fin 4) (h : Fin 8) (r : Fin 2048) (d : Fin 64) (j : Fin 2048) :
    Read.ridx_main_v14 (ix4 b h r d) j = ix4 b h j d :=
  funext fun a => Fin.ext (by match a with | ⟨0, _⟩ => rfl | ⟨1, _⟩ => rfl | ⟨2, _⟩ => rfl | ⟨3, _⟩ => rfl)

/-- The two broadcasts of the sum read it, at (b, h, r, j), at (b, h, r). -/
theorem idx_v11_v12 (b : Fin 4) (h : Fin 8) (r j : Fin 2048) :
    Read.idx_main_v11 (Read.idx_main_v12 (ix4 b h r j)) = ix3 b h r :=
  funext fun a => Fin.ext (by match a with | ⟨0, _⟩ => rfl | ⟨1, _⟩ => rfl | ⟨2, _⟩ => rfl)

/-- **The reference at an index.** At (b, h, r, d) the reference program's result is
    ∑ j, (exp (score j - M) / (0 + ∑ j', exp (score j' - M))) * v[b,h,j,d], with M the row's maximum: the function `refOut`. -/
theorem ref_apply (x0 x1 x2 : (⟨S4x8x2048x64, .f32⟩ : BufTy).Contents (Elt Ideal)) (b : Fin 4) (h : Fin 8) (r : Fin 2048) (d : Fin 64) :
    Cert.ReferenceIdeal.Read.val_main_v14 (F := Ideal) x0 x1 x2 (ix4 b h r d) = refOut x0 x1 x2 b h r d := by
  rw [Read.val_main_v14_apply]
  unfold refOut
  refine Finset.sum_congr rfl fun j _ => ?_
  rw [lidx_v14, ridx_v14, Read.val_main_v13_apply, Read.val_main_v12_apply, Read.val_main_v11_apply, idx_v11_v12,
    exp_apply, sum_apply]
  rfl

end Cert.ReferenceIdeal.RefValue

end
-- ==== Proof.LibSoftmaxReal.lean ====
import Idealize.ShloMosaic.PureOps.Ideal

/-!
# Softmax over the extended reals, on a row of real scores

A softmax of a row of scores s, computed the stable way, takes the row's maximum M (a fold of max from the bottom),
the exponentials e j = exp (s j - M), and their sum D. Two programs may then differ in how they normalise: one
multiplies e j by the reciprocal 1 / D, the other divides e j by D. On the extended reals the quotient by D is the
product with D's inverse only where D is not zero, so the two agree exactly when D ≠ 0. This file shows that a row of
real scores over a finite index type with at least one index gives that, with nothing asked about which index attains
the maximum:

* coe_sum: a finite sum of reals read in the extended reals is the real sum.
* exp_nonneg: the exponential of an extended real is nowhere negative (0 at the bottom, the top at the top).
* foldMax_real: the fold of max from the bottom over a row of real scores is a real number: it is above any one
  score, which is not the bottom, and every score is below the top.
* sumExpShift_ne_zero: so the sum of the shifted exponentials is not zero: every term is nonnegative and any one
  term is the exponential of a real, which is positive.
* mul_div_one_eq_div: off zero, the product with the reciprocal is the quotient.
-/

noncomputable section

namespace Cert.LibSoftmaxReal

open Idealize.ShloMosaic

/-- A finite sum of reals, read in the extended reals, is the real sum. -/
theorem coe_sum {ι : Type*} (t : Finset ι) (f : ι → ℝ) : (∑ x ∈ t, ((f x : ℝ) : EReal)) = ((∑ x ∈ t, f x : ℝ) : EReal) := by
  classical
  induction t using Finset.induction_on with
  | empty => simp
  | insert a t ha ih => rw [Finset.sum_insert ha, Finset.sum_insert ha, ih, EReal.coe_add]

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

section Row

variable {ι : Type*} [Fintype ι]

/-- The maximum, folded from the bottom, of a row of real scores with at least one index is a real number. -/
theorem foldMax_real (s : ι → EReal) (hs : ∀ j, ∃ r : ℝ, s j = r) (j0 : ι) :
    ∃ μ : ℝ, (Finset.univ : Finset ι).fold max ⊥ s = μ := by
  have hlt : (Finset.univ : Finset ι).fold max ⊥ s < ⊤ := by
    rw [Finset.fold_max_lt]
    refine ⟨bot_lt_top, fun j _ => ?_⟩
    obtain ⟨r, hr⟩ := hs j
    rw [hr]; exact EReal.coe_lt_top r
  have hge : s j0 ≤ (Finset.univ : Finset ι).fold max ⊥ s := by
    rw [Finset.le_fold_max]
    exact Or.inr ⟨j0, Finset.mem_univ _, le_refl _⟩
  obtain ⟨r0, hr0⟩ := hs j0
  have hbot : (Finset.univ : Finset ι).fold max ⊥ s ≠ ⊥ := by
    intro h
    rw [h, hr0] at hge
    exact absurd (le_bot_iff.mp hge) (EReal.coe_ne_bot r0)
  exact ⟨((Finset.univ : Finset ι).fold max ⊥ s).toReal, (EReal.coe_toReal hlt.ne hbot).symm⟩

/-- The sum of the exponentials of a row of real scores shifted by the row's maximum is not zero. -/
theorem sumExpShift_ne_zero (s : ι → EReal) (hs : ∀ j, ∃ r : ℝ, s j = r) (j0 : ι) :
    (∑ j : ι, Ideal.exp (s j - (Finset.univ : Finset ι).fold max ⊥ s)) ≠ 0 := by
  obtain ⟨μ, hμ⟩ := foldMax_real s hs j0
  obtain ⟨r0, hr0⟩ := hs j0
  have hpos : 0 < Ideal.exp (s j0 - (Finset.univ : Finset ι).fold max ⊥ s) := by
    rw [hμ, hr0, ← EReal.coe_sub, Ideal.exp_coe]
    exact EReal.coe_pos.mpr (Real.exp_pos _)
  have hle : Ideal.exp (s j0 - (Finset.univ : Finset ι).fold max ⊥ s)
      ≤ ∑ j : ι, Ideal.exp (s j - (Finset.univ : Finset ι).fold max ⊥ s) :=
    Finset.single_le_sum (f := fun j => Ideal.exp (s j - (Finset.univ : Finset ι).fold max ⊥ s))
      (fun j _ => exp_nonneg _) (Finset.mem_univ j0)
  exact (lt_of_lt_of_le hpos hle).ne'

end Row

/-- Off zero, the product with the reciprocal is the quotient. -/
theorem mul_div_one_eq_div (e D : EReal) (hD : D ≠ 0) : e * Ideal.div 1 D = Ideal.div e D := by
  unfold Ideal.div
  rw [if_neg hD, if_neg hD, one_mul]

end Cert.LibSoftmaxReal

end
-- ==== Proof.SoftmaxLaw.lean ====
/-
  The law that joins a softmax-weighted sum accumulated tile by tile to the softmax-weighted sum computed at once.
-/
import Idealize.ShloMosaic.PureOps.Ideal
import proofs.«137079_j57234734187137_2_alg».proof.Proof.LibSoftmaxReal

/-!
# The online softmax law

A softmax-weighted sum of a row of scores s with weights w is (∑ exp (s j - c) * w j) / (∑ exp (s j - c)), and
this quotient does not depend on the real reference point c: moving c to c' multiplies numerator and denominator
by the same positive factor exp (c' - c), because exp (a - b) * exp (x - a) = exp (x - b).

A program may cut the row into two tiles and keep a running reference point (m1 after the first tile, m2 after
the second), a running sum of exponentials and a running weighted sum, rescaling both running sums by
exp (m1 - m2) when the reference point moves. Another program may take one reference point M for the whole row
and divide each exponential by the whole sum before weighting. Both compute the quotient above, for reference
points m2 and M, so they agree; the denominators are sums of exponentials of reals over a row with at least one
index, so they are positive and the quotients are honest.
-/

noncomputable section

namespace Cert.SoftmaxLaw

open Idealize.ShloMosaic
open Cert.LibSoftmaxReal

/-- The pattern with sign bit set, all exponent bits set and no fraction bit denotes minus infinity. -/
theorem ofBits_neg_inf : Ideal.ofBits .f32 0xFF800000#32 = (⊥ : EReal) := by
  simp [Ideal.ofBits, Ideal.ieee]

/-- The pattern of sign 0, exponent 124 and fraction 0 denotes 2 ^ 23 * 2 ^ (124 - 127 - 23) = 1 / 8. -/
theorem ofBits_eighth_val : Ideal.ofBits .f32 0x3E000000#32 = ((1 / 8 : ℝ) : EReal) := by
  simp [Ideal.ofBits, Ideal.ieee, -EReal.coe_mul]; norm_num

/-- The pattern of 0.125 denotes a real number (namely 1 / 8). -/
theorem ofBits_eighth : ∃ r : ℝ, Ideal.ofBits .f32 0x3E000000#32 = (r : EReal) :=
  ⟨1 / 8, ofBits_eighth_val⟩

/-- The bottom is the unit of max. -/
theorem max_bot_left (x : EReal) : max ⊥ x = x := bot_sup_eq x

/-- The maximum of two reals read in the extended reals is the maximum of their readings. -/
theorem coe_max (a b : ℝ) : max (a : EReal) (b : EReal) = ((max a b : ℝ) : EReal) :=
  (EReal.coe_strictMono.monotone.map_max (a := a) (b := b)).symm

/-- The law over the reals. With E = exp (M - m2): exp (m1 - m2) * exp (x - m1) = E * exp (x - M) and
    exp (x - m2) = E * exp (x - M), so the two-tile numerator is E times the one-pass numerator and the two-tile
    denominator is E times the one-pass denominator Z; E is positive and cancels, and dividing each term by Z
    before weighting and summing is dividing the weighted sum by Z. -/
theorem online_eq_real {J0 J1 : Type} [Fintype J0] [Fintype J1] [Nonempty J0]
    (s0 : J0 → ℝ) (s1 : J1 → ℝ) (w0 : J0 → ℝ) (w1 : J1 → ℝ) (m1 m2 M : ℝ) :
    (Real.exp (m1 - m2) * (∑ j, Real.exp (s0 j - m1) * w0 j) + ∑ j, Real.exp (s1 j - m2) * w1 j)
        * (1 / (Real.exp (m1 - m2) * (∑ j, Real.exp (s0 j - m1)) + ∑ j, Real.exp (s1 j - m2)))
    = (∑ j, Real.exp (s0 j - M) * (1 / ((∑ i, Real.exp (s0 i - M)) + ∑ i, Real.exp (s1 i - M))) * w0 j)
      + ∑ j, Real.exp (s1 j - M) * (1 / ((∑ i, Real.exp (s0 i - M)) + ∑ i, Real.exp (s1 i - M))) * w1 j := by
  have h0 : ∀ j, Real.exp (m1 - m2) * Real.exp (s0 j - m1) = Real.exp (M - m2) * Real.exp (s0 j - M) := by
    intro j; rw [← Real.exp_add, ← Real.exp_add]; congr 1; ring
  have h1 : ∀ j, Real.exp (s1 j - m2) = Real.exp (M - m2) * Real.exp (s1 j - M) := by
    intro j; rw [← Real.exp_add]; congr 1; ring
  have hZ0 : 0 < ∑ i, Real.exp (s0 i - M) :=
    Finset.sum_pos (fun i _ => Real.exp_pos _) Finset.univ_nonempty
  have hZ1 : 0 ≤ ∑ i, Real.exp (s1 i - M) := Finset.sum_nonneg (fun i _ => (Real.exp_pos _).le)
  have hZ : 0 < (∑ i, Real.exp (s0 i - M)) + ∑ i, Real.exp (s1 i - M) := add_pos_of_pos_of_nonneg hZ0 hZ1
  have hE : 0 < Real.exp (M - m2) := Real.exp_pos _
  have hN : Real.exp (m1 - m2) * (∑ j, Real.exp (s0 j - m1) * w0 j) + ∑ j, Real.exp (s1 j - m2) * w1 j
      = Real.exp (M - m2) * ((∑ j, Real.exp (s0 j - M) * w0 j) + ∑ j, Real.exp (s1 j - M) * w1 j) := by
    rw [mul_add, Finset.mul_sum, Finset.mul_sum, Finset.mul_sum]
    congr 1
    · refine Finset.sum_congr rfl fun j _ => ?_
      rw [← mul_assoc, h0 j, mul_assoc]
    · refine Finset.sum_congr rfl fun j _ => ?_
      rw [h1 j, mul_assoc]
  have hD : Real.exp (m1 - m2) * (∑ j, Real.exp (s0 j - m1)) + ∑ j, Real.exp (s1 j - m2)
      = Real.exp (M - m2) * ((∑ i, Real.exp (s0 i - M)) + ∑ i, Real.exp (s1 i - M)) := by
    rw [mul_add, Finset.mul_sum, Finset.mul_sum, Finset.mul_sum]
    congr 1
    · exact Finset.sum_congr rfl fun j _ => h0 j
    · exact Finset.sum_congr rfl fun j _ => h1 j
  have hR : (∑ j, Real.exp (s0 j - M) * (1 / ((∑ i, Real.exp (s0 i - M)) + ∑ i, Real.exp (s1 i - M))) * w0 j)
      + ∑ j, Real.exp (s1 j - M) * (1 / ((∑ i, Real.exp (s0 i - M)) + ∑ i, Real.exp (s1 i - M))) * w1 j
      = (1 / ((∑ i, Real.exp (s0 i - M)) + ∑ i, Real.exp (s1 i - M)))
        * ((∑ j, Real.exp (s0 j - M) * w0 j) + ∑ j, Real.exp (s1 j - M) * w1 j) := by
    rw [mul_add, Finset.mul_sum, Finset.mul_sum]
    congr 1
    · exact Finset.sum_congr rfl fun j _ => by ring
    · exact Finset.sum_congr rfl fun j _ => by ring
  rw [hN, hD, hR]
  field_simp

/-- The law on the extended reals, in the shape two programs print. Every term is the reading of a real: the
    first tile's rescaled empty accumulator exp (⊥ - m1) * 0 is 0 * 0 = 0, every other exponential is the
    exponential of a real difference, and both denominators are positive reals, so both quotients are products
    with a real reciprocal and the statement is the reading of the law over the reals. -/
theorem online_eq {J0 J1 : Type} [Fintype J0] [Fintype J1] [Nonempty J0]
    (s0 : J0 → ℝ) (s1 : J1 → ℝ) (w0 : J0 → ℝ) (w1 : J1 → ℝ) (m1 m2 M : ℝ) :
    Ideal.div
      (Ideal.exp ((m1 : EReal) - (m2 : EReal)) * (Ideal.exp ((⊥ : EReal) - (m1 : EReal)) * 0 + ∑ j, Ideal.exp ((s0 j : EReal) - (m1 : EReal)) * (w0 j : EReal))
        + ∑ j, Ideal.exp ((s1 j : EReal) - (m2 : EReal)) * (w1 j : EReal))
      (Ideal.exp ((m1 : EReal) - (m2 : EReal)) * (Ideal.exp ((⊥ : EReal) - (m1 : EReal)) * 0 + ∑ j, Ideal.exp ((s0 j : EReal) - (m1 : EReal)))
        + ∑ j, Ideal.exp ((s1 j : EReal) - (m2 : EReal)))
    = (∑ j, Ideal.div (Ideal.exp ((s0 j : EReal) - (M : EReal))) (0 + ((∑ i, Ideal.exp ((s0 i : EReal) - (M : EReal))) + ∑ i, Ideal.exp ((s1 i : EReal) - (M : EReal)))) * (w0 j : EReal))
      + ∑ j, Ideal.div (Ideal.exp ((s1 j : EReal) - (M : EReal))) (0 + ((∑ i, Ideal.exp ((s0 i : EReal) - (M : EReal))) + ∑ i, Ideal.exp ((s1 i : EReal) - (M : EReal)))) * (w1 j : EReal) := by
  have hZ0 : 0 < ∑ i, Real.exp (s0 i - M) :=
    Finset.sum_pos (fun i _ => Real.exp_pos _) Finset.univ_nonempty
  have hZ1 : 0 ≤ ∑ i, Real.exp (s1 i - M) := Finset.sum_nonneg (fun i _ => (Real.exp_pos _).le)
  have hZ : (∑ i, Real.exp (s0 i - M)) + ∑ i, Real.exp (s1 i - M) ≠ 0 := (add_pos_of_pos_of_nonneg hZ0 hZ1).ne'
  have hB0 : 0 < ∑ j, Real.exp (s0 j - m1) :=
    Finset.sum_pos (fun i _ => Real.exp_pos _) Finset.univ_nonempty
  have hB1 : 0 ≤ ∑ j, Real.exp (s1 j - m2) := Finset.sum_nonneg (fun i _ => (Real.exp_pos _).le)
  have hD : Real.exp (m1 - m2) * (∑ j, Real.exp (s0 j - m1)) + ∑ j, Real.exp (s1 j - m2) ≠ 0 :=
    (add_pos_of_pos_of_nonneg (mul_pos (Real.exp_pos _) hB0) hB1).ne'
  simp only [EReal.bot_sub, Ideal.exp_bot, mul_zero, zero_add, ← EReal.coe_sub, Ideal.exp_coe, ← EReal.coe_mul,
    coe_sum, ← EReal.coe_add, Ideal.div_coe hZ, Ideal.div_coe hD]
  exact congrArg _ (online_eq_real s0 s1 w0 w1 m1 m2 M)

end Cert.SoftmaxLaw

end
-- ==== Proof.Bridge.lean ====
/-
  The kernel's two-tile arrangement of scaled dot-product attention and the reference's whole-row arrangement agree
  index by index, when every entry of the three input arrays is a real number.
-/
import proofs.«137079_j57234734187137_2_alg».proof.Proof.AttentionSpec
import proofs.«137079_j57234734187137_2_alg».proof.Proof.SoftmaxLaw
import proofs.«137079_j57234734187137_2_alg».proof.Proof.LibSoftmaxReal
import Idealize.ShloMosaic.PureOps.Ideal.Laws

/-!
# From two tiles to the whole row

The 2048 key rows are the 1024 rows `lo j` of the first tile followed by the 1024 rows `hi j` of the second, so
every sum over the key rows is the sum over the first tile plus the sum over the second. With real inputs every
score is a real number (a finite sum of products of reals), and every maximum taken over a tile or over the whole
row is a real number (a maximum of reals over at least one index; the minus infinity the fold starts from drops
out). The kernel's running quantities are then exactly the two-tile side of the online softmax law, with reference
points the first tile's maximum and the maximum of both tiles, and the reference's result is the one-pass side of
the law with reference point the row's maximum; the law holds for any real reference points, so the two agree.
-/

noncomputable section

namespace Cert.Bridge

open Idealize.ShloMosaic Idealize.ShloMosaic.ValueIdx Cert.AttentionSpec

/-- A sum over the 2048 key rows is the sum over the rows of the first tile plus the sum over the rows of the
    second: 2048 = 1024 + 1024, the first 1024 indices are the `lo j` and the last 1024 are the `hi j`. -/
theorem sum_split {M : Type} [AddCommMonoid M] (f : Fin 2048 → M) :
    ∑ k : Fin 2048, f k = ∑ j : Fin 1024, f (lo j) + ∑ j : Fin 1024, f (hi j) := by
  have hlo : ∀ j : Fin 1024, (Fin.castAdd 1024 j : Fin (1024 + 1024)) = lo j := fun j => Fin.ext rfl
  have hhi : ∀ j : Fin 1024, (Fin.natAdd 1024 j : Fin (1024 + 1024)) = hi j := fun j => Fin.ext rfl
  have h := Fin.sum_univ_add (a := 1024) (b := 1024) (f := f)
  simp only [hlo, hhi] at h
  exact h

/-- With real queries and keys every score is a real number: the scale is the real 1/8, each of the 64 terms is a
    product of three reals, and a finite sum of reals is a real. -/
theorem score_real (q k : SArr.Idx → EReal) (hq : ∀ i, ∃ x : ℝ, q i = (x : EReal))
    (hk : ∀ i, ∃ x : ℝ, k i = (x : EReal)) (b : Fin 4) (h : Fin 8) (r j : Fin 2048) :
    ∃ x : ℝ, score q k b h r j = (x : EReal) := by
  choose qr hqr using hq
  choose kr hkr using hk
  refine ⟨∑ d : Fin 64, (qr (ix4 b h r d) * (1 / 8)) * kr (ix4 b h j d), ?_⟩
  unfold score
  simp only [hqr, hkr, Cert.SoftmaxLaw.ofBits_eighth_val, ← EReal.coe_mul]
  exact Cert.LibSoftmaxReal.coe_sum _ _

/-- With real queries, keys and values the kernel's two-tile result is the reference's result. The first tile's
    maximum m1, the maximum m2 of both tiles and the row's maximum M are real numbers; the kernel's weighted sum
    and sum of exponentials are the two-tile side of the online softmax law for (m1, m2), the reference's sum over
    the 2048 key rows, split into the two tiles, is the one-pass side for M, and the law joins them. -/
theorem kern_eq_ref (q k v : SArr.Idx → EReal) (hq : ∀ i, ∃ x : ℝ, q i = (x : EReal))
    (hk : ∀ i, ∃ x : ℝ, k i = (x : EReal)) (hv : ∀ i, ∃ x : ℝ, v i = (x : EReal))
    (b : Fin 4) (h : Fin 8) (r : Fin 2048) (d : Fin 64) :
    kernOut q k v b h r d = refOut q k v b h r d := by
  choose sr hsr using score_real q k hq hk b h r
  choose vr hvr using hv
  have hneg : cNegInf = (⊥ : EReal) := Cert.SoftmaxLaw.ofBits_neg_inf
  have hzero : cZero = (0 : EReal) := Ideal.ofBits_zero_f32
  obtain ⟨μ1, hμ1⟩ := Cert.LibSoftmaxReal.foldMax_real (fun j : Fin 1024 => score q k b h r (lo j))
    (fun j => ⟨sr (lo j), hsr (lo j)⟩) 0
  obtain ⟨μ2, hμ2⟩ := Cert.LibSoftmaxReal.foldMax_real (fun j : Fin 1024 => score q k b h r (hi j))
    (fun j => ⟨sr (hi j), hsr (hi j)⟩) 0
  obtain ⟨μ, hμ⟩ := Cert.LibSoftmaxReal.foldMax_real (fun j : Fin 2048 => score q k b h r j)
    (fun j => ⟨sr j, hsr j⟩) 0
  have hm1 : max1 q k b h r = (μ1 : EReal) := by
    unfold max1
    rw [hneg, hμ1, Cert.SoftmaxLaw.max_bot_left]
  have hm2 : max2 q k b h r = ((max μ1 μ2 : ℝ) : EReal) := by
    unfold max2
    rw [hm1, hneg, hμ2, Cert.SoftmaxLaw.coe_max]
  have hM : rowMax q k b h r = (μ : EReal) := by
    unfold rowMax
    rw [hneg, hμ, Cert.SoftmaxLaw.max_bot_left]
  unfold kernOut acc2 sum2 acc1 sum1 refOut
  rw [hm1, hm2, hM, hneg, hzero]
  simp only [sum_split, hsr, hvr]
  exact Cert.SoftmaxLaw.online_eq (fun j => sr (lo j)) (fun j => sr (hi j))
    (fun j => vr (ix4 b h (lo j) d)) (fun j => vr (ix4 b h (hi j) d)) μ1 (max μ1 μ2) μ

end Cert.Bridge

end
-- ==== Proof.FiniteInputs.lean ====
/-
  The precondition of the certificate, read back at the ideal instance.

  The printed predicate takes, for each of its three arrays, the absolute value of every entry, compares it
  strictly below `+∞`, folds the resulting truth values by `and` over all four axes starting from `true`, and
  finally takes the `and` of the three folds. Over the extended reals the absolute value of `x` is `max x (-x)`,
  which is `⊤` at both `x = ⊤` and `x = ⊥` and is the real `|r|` at a real `x = r`. So the predicate holding says
  exactly that every entry of every array is a real number.
-/
import proofs.«137079_j57234734187137_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.FiniteInputs

open Idealize.ShloMosaic

/-- A shape of rank zero has exactly one index. -/
instance subsingleton_scalar_idx : Subsingleton Cert.Pre_finite_inputs.S_.Idx :=
  ⟨fun a b => funext fun d => d.elim0⟩

/-- The single-precision pattern `0x7F800000` (sign 0, exponent all ones, significand 0) denotes `+∞`. -/
theorem ofBits_posInf : Ideal.ofBits .f32 0x7F800000#32 = (⊤ : EReal) := by
  simp [Ideal.ofBits, Ideal.ieee]

/-- An extended real `x` whose absolute value `max x (-x)` lies strictly below `⊤` is a real number:
    at `x = ⊥` the maximum is `-⊥ = ⊤`, at `x = ⊤` it is `⊤`, and `⊤ < ⊤` fails in both cases. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One array's conjunct: if the `and` over all entries of `|x i| < +∞` is true, every entry of `x` is real. -/
theorem real_of_all [Cert.Pre_finite_inputs.Facts]
    (x : FVec Ideal Cert.Pre_finite_inputs.S4x8x2048x64 .f32)
    (h : Host.reduce IntOp.andi
          (cmpf .olt (Host.absf x)
            (broadcastInDim Cert.Pre_finite_inputs.S4x8x2048x64 ![]
              Cert.Pre_finite_inputs.Facts.bcast_S_S4x8x2048x64
              (constant (F := Ideal) Cert.Pre_finite_inputs.S_ .f32 0x7F800000#32)))
          (constantI Cert.Pre_finite_inputs.S_ 1 1#1)
          Cert.Pre_finite_inputs.Facts.reducesTo_S4x8x2048x64_S_d0_1_2_3
          Cert.Pre_finite_inputs.Facts.h_S_ ValueIdx.ix0 = 1#1) :
    ∀ i, ∃ r : ℝ, x i = (r : EReal) := by
  intro i
  have hi := Host.reduce_andi_all _ _ _ _ _ h i
  apply real_of_abs_lt_top
  rw [← ofBits_posInf]
  exact hi

/-- **The precondition says the inputs are real.** If the printed predicate `finite_inputs` evaluates, over the
    extended reals, to `true` on the three arrays `x0`, `x1`, `x2` — that is, `|x| < +∞` holds at every entry of
    each — then every entry of each array is a real number (neither `⊤` nor `⊥`). -/
theorem real_of_pre [Cert.Pre_finite_inputs.Facts] (x0 x1 x2 : FVec Ideal Cert.Pre_finite_inputs.S4x8x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.FiniteInputs
-- ==== Proof.lean ====
/-
  Scaled dot-product attention, computed by a kernel that streams the key rows in two tiles with a running softmax,
  against the plain formula softmax((q / 8) kᵀ) v.

  The three programs terminate without a fault and leave their arguments unchanged (the frames). The idealized kernel
  is the kernel's own text read over the extended reals: no operation was rewritten. Over the extended reals, on inputs
  whose every entry is a real number, the two programs end with equal results: the kernel's result array holds, at
  (b, h, r, d), the weighted sum of value rows accumulated over the two tiles divided by the accumulated sum of
  exponentials (Proof/KernelValue.lean, read off the kernel's run); the reference's holds the sum over all key rows of
  the normalised exponentials times the value rows (Proof/RefValue.lean, read off its run); and for real scores the two
  are one number, because rescaling by exp (m - m') moves every exponential from the reference point m to m' and a
  common positive factor cancels in a quotient (Proof/SoftmaxLaw.lean, Proof/Bridge.lean). The inputs are real because
  the precondition says so (Proof/FiniteInputs.lean).
-/
import proofs.«137079_j57234734187137_2_alg».proof.Defs
import proofs.«137079_j57234734187137_2_alg».proof.Proof.Gen.Kernel
import proofs.«137079_j57234734187137_2_alg».proof.Proof.Gen.Kernel.Frame
import proofs.«137079_j57234734187137_2_alg».proof.Proof.Gen.KernelIdeal
import proofs.«137079_j57234734187137_2_alg».proof.Proof.Gen.KernelIdeal.Frame
import proofs.«137079_j57234734187137_2_alg».proof.Proof.Gen.ReferenceIdeal
import proofs.«137079_j57234734187137_2_alg».proof.Proof.Gen.ReferenceIdeal.Run
import proofs.«137079_j57234734187137_2_alg».proof.Proof.Gen.ReferenceIdeal.Read
import proofs.«137079_j57234734187137_2_alg».proof.Proof.Gen.Pre_finite_inputs
import proofs.«137079_j57234734187137_2_alg».proof.Proof.KernelValue
import proofs.«137079_j57234734187137_2_alg».proof.Proof.RefValue
import proofs.«137079_j57234734187137_2_alg».proof.Proof.Bridge
import proofs.«137079_j57234734187137_2_alg».proof.Proof.FiniteInputs
import Idealize.ShloMosaic.Adequacy
import Idealize.ShloMosaic.Init

noncomputable section

namespace Cert.Proof

open Idealize.ShloMosaic Idealize.SL.Sem Idealize.ShloMosaic.ValueIdx

/-- The kernel as printed terminates, faults nowhere and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- On real inputs the kernel's two-tile running softmax and the reference's one-pass softmax give the same attention
    output, entry by entry. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ?_
  rw [(hagree c).1, (hagree c).2.1, (hagree c).2.2]
  obtain ⟨hq, hk, hv⟩ := Cert.FiniteInputs.real_of_pre _ _ _ (hpre c)
  funext i
  obtain ⟨b, h, r, d, rfl⟩ : ∃ (b : Fin 4) (h : Fin 8) (r : Fin 2048) (d : Fin 64), i = ix4 b h r d :=
    ⟨i 0, i 1, i 2, i 3, eq_ix4 i⟩
  rw [Cert.ReferenceIdeal.RefValue.ref_apply]
  exact (Cert.Bridge.kern_eq_ref _ _ _ hq hk hv b h r d).symm.trans (Cert.KernelIdeal.KValue.result_apply m c b h r d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
